-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S2x2048x1024 .f32) (main_arg1 : FVec F S3072x1024 .f32) (main_arg2 : FVec F S3072 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S3072 : Shape := ⟨1, ![3072]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 10
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S4096x1024, .f32⟩
  | .hbm, ⟨4, _⟩ => ⟨S4096x1024, .bf16⟩
  | .hbm, ⟨5, _⟩ => ⟨S3072x1024, .bf16⟩
  | .hbm, ⟨6, _⟩ => ⟨S1x3072, .f32⟩
  | .hbm, ⟨7, _⟩ => ⟨S4096x3072, .bf16⟩
  | .hbm, ⟨8, _⟩ => ⟨S2x2048x3072, .bf16⟩
  | .hbm, ⟨9, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x512x128, .f32⟩
  | .local _ .vmem, ⟨13, _⟩ => ⟨S1x512x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S2x2048x1024_S4096x1024 : S2x2048x1024.ShapeCasts S4096x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  slices_S512x128_o0_64_S512x64 : S512x128.Slices ![0, 64] S512x64
  slices_S2048x128_o0_64_S2048x64 : S2048x128.Slices ![0, 64] S2048x64
  inb_S1x512x128_S1x512x64_0_0_64 : ∀ a, (![0, 0, 64] : Fin 3 → Nat) a + S1x512x64.size a ≤ S1x512x128.size a
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x3072.size a
  hwx1_0 : ∀ i : grid1.Coords, EltTy.bits .bf16 = 32 ∨ (Rect.block (s := S2x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x3072.size a
  hwx1_1 : ∀ i : grid1.Coords, EltTy.bits .bf16 = 32 ∨ (Rect.block (s := S2x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x3072.size a
  hwx1_2 : ∀ i : grid1.Coords, EltTy.bits .bf16 = 32 ∨ (Rect.block (s := S2x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .f32 = 32 ∨ (Rect.block (s := S2x2048x1024) S1x512x128.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S2x2048x3072, .f32⟩
  | .hbm, ⟨4, _⟩ => ⟨S1x1x3072, .f32⟩
  | .hbm, ⟨5, _⟩ => ⟨S2x2048x3072, .f32⟩
  | .hbm, ⟨6, _⟩ => ⟨S2x2048x3072, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x16x2048x2048, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S_, .f32⟩
  | .hbm, ⟨23, _⟩ => ⟨S2x16x2048, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x64, .f32⟩
  | .hbm, ⟨35, _⟩ => ⟨S2x2048x16x64, .f32⟩
  | .hbm, ⟨36, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KFrameR0.lean ====
/-
  The first region (the projection kernel), at the contents V the region is entered with.

  At grid point t the body reads three whole staging buffers — rows 512 t … 512 t + 511 of the flattened activation,
  the whole weight, the bias row — and writes one: the block of 512 rows of the projection. Nothing is kept between
  points. This module states what the output buffer holds after the body as a function of the three input blocks, runs
  the body once symbolically, and packages the result as the pipeline's proof data with its body obligation.
-/
import proofs.«130582_j40767829573965_2_alg».proof.Proof.Gen.Kernel.Launch
import proofs.«130582_j40767829573965_2_alg».proof.Proof.Gen.Kernel.Skeleton
import proofs.«130582_j40767829573965_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S512x1024 := Rect.unit (s := S512x1024) ![0, 0] S512x1024.size inb_S512x1024_S512x1024_0_0
abbrev rw0 : Rect S3072x1024 := Rect.unit (s := S3072x1024) ![0, 0] S3072x1024.size inb_S3072x1024_S3072x1024_0_0
abbrev rb0 : Rect S1x3072 := Rect.unit (s := S1x3072) ![0, 0] S1x3072.size inb_S1x3072_S1x3072_0_0
abbrev ro0 : Rect S512x3072 := Rect.unit (s := S512x3072) ![0, 0] S512x3072.size inb_S512x3072_S512x3072_0_0

/-- The output buffer after the body: its one store, of the projection of the three loaded blocks. -/
def out0_3 (x0 : Vec F S512x1024 .bf16) (x1 : Vec F S3072x1024 .bf16) (x2 : Vec F S1x3072 .f32) : Vec F S512x3072 .bf16 :=
  View.canon [⟨ro0, k0_pay1 (View.ld x0 rx0) (View.ld x1 rw0) (View.ld x2 rb0)⟩]

/-- The store is of the whole buffer, so it covers it. -/
theorem cover0_3 (p0 : Vec F S512x3072 .bf16) (y : S512x3072.Idx) :
    ∃ pc ∈ ([⟨ro0, p0⟩] : List (View.Piece (Elt F) S512x3072 .bf16)), y ∈ pc.1.set :=
  View.cover_of_tiled [⟨ro0, p0⟩] S512x3072.size (by rfl) y

set_option maxHeartbeats 1000000 in
/-- The body on whole staging buffers, the inputs at x0, x1, x2 and the output at anything, runs to the continuation
    with the inputs as they were and the output at out0_3 of them. -/
theorem sound_kernel0 (c : Dev nD) (E : Set ℕ) (i : grid0.Coords) (arg1 : Memref sig .tc .vmem S512x1024 .bf16) (harg1 : arg1.IsWhole)
    (arg2 : Memref sig .tc .vmem S3072x1024 .bf16) (harg2 : arg2.IsWhole) (arg3 : Memref sig .tc .vmem S1x3072 .f32) (harg3 : arg3.IsWhole)
    (arg4 : Memref sig .tc .vmem S512x3072 .bf16) (harg4 : arg4.IsWhole)
    (x0 : Vec F S512x1024 .bf16) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core c: the arrays as the region finds them; after the body at point t each input's
    buffer at its block and the output's at out0_3 of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrameR1.lean ====
/-
  The second region (the attention kernel), at the contents V the region is entered with.

  At grid point t = (batch, head pair, row tile) the body reads three whole staging buffers — a tile of 512 query rows
  and all 2048 key rows and value rows, each 128 lanes wide: the two heads of the pair side by side — and writes the
  output tile in two halves: lanes 0..63 from the first head, lanes 64..127 from the second. The two stores tile the
  buffer. Nothing is kept between points. This module states what the output buffer holds after the body as a function
  of the three input blocks, runs the body once symbolically, and packages the result as the pipeline's proof data. The
  three input windows read one array; each holds it at a share of its own (a third of the whole, by two halvings).
-/
import proofs.«130582_j40767829573965_2_alg».proof.Proof.Gen.Kernel.Launch
import proofs.«130582_j40767829573965_2_alg».proof.Proof.Gen.Kernel.Skeleton
import proofs.«130582_j40767829573965_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rq1 : Rect S1x512x128 := Rect.unit (s := S1x512x128) ![0, 0, 0] S1x512x128.size inb_S1x512x128_S1x512x128_0_0_0
abbrev rk1 : Rect S1x2048x128 := Rect.unit (s := S1x2048x128) ![0, 0, 0] S1x2048x128.size inb_S1x2048x128_S1x2048x128_0_0_0
abbrev rlo1 : Rect S1x512x128 := Rect.unit (s := S1x512x128) ![0, 0, 0] S1x512x64.size inb_S1x512x128_S1x512x64_0_0_0
abbrev rhi1 : Rect S1x512x128 := Rect.unit (s := S1x512x128) ![0, 0, 64] S1x512x64.size inb_S1x512x128_S1x512x64_0_0_64

/-- The output buffer after the body: its two stores as pieces, the last first. -/
def out1_3 (x0 : Vec F S1x512x128 .bf16) (x1 : Vec F S1x2048x128 .bf16) (x2 : Vec F S1x2048x128 .bf16) : Vec F S1x512x128 .f32 :=
  View.canon [⟨rhi1, k1_pay1 (k1_pay6 (View.ld x2 rk1)) (k1_pay7 (View.ld x0 rq1) (View.ld x1 rk1))⟩,
    ⟨rlo1, k1_pay5 (View.ld x0 rq1) (View.ld x1 rk1) (View.ld x2 rk1)⟩]

/-- The two half-tiles tile the buffer, so they cover it. -/
theorem cover1_3 (p0 : Vec F S1x512x64 .f32) (p1 : Vec F S1x512x64 .f32) (y : S1x512x128.Idx) :
    ∃ pc ∈ ([⟨rhi1, p0⟩, ⟨rlo1, p1⟩] : List (View.Piece (Elt F) S1x512x128 .f32)), y ∈ pc.1.set :=
  View.cover_of_tiled [⟨rhi1, p0⟩, ⟨rlo1, p1⟩] S1x512x64.size (by rfl) y

set_option maxHeartbeats 1000000 in
/-- The body on whole staging buffers, the inputs at x0, x1, x2 and the output at anything, runs to the continuation
    with the inputs as they were and the output at out1_3 of them. -/
theorem sound_kernel1 (c : Dev nD) (E : Set ℕ) (i : grid1.Coords) (arg3 : Memref sig .tc .vmem S1x512x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x512x128 .f32) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-- The pipeline's proof data on core c: the arrays as the region finds them; after the body at point t each input's
    buffer at its block and the output's at out1_3 of the input blocks; the scoped rest and the generator register
    untouched; nothing owed; the three readers of the shared array at a third of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => (fullShare : PosShare TreeShare).left
    | ⟨1, _⟩ => (fullShare : PosShare TreeShare).right.left
    | ⟨2, _⟩ => (fullShare : PosShare TreeShare).right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrameShare.lean ====
/-
  One array read through three windows.

  The attention region hands ONE array (the projected activations) to three input windows and a second array (the result)
  to its output window. A core holds all its top-level buffers whole; the three readers each take a third of the shared
  array — the whole halved, and the second half halved again — and give it back at the end. This module states that
  exchange as an equation: a core's top-level buffers at contents V are the region's four windowed arrays at V, at those
  shares, beside the buffers the region does not touch.
-/
import proofs.«130582_j40767829573965_2_alg».proof.Proof.Gen.Kernel.Launch
import proofs.«130582_j40767829573965_2_alg».proof.Proof.Gen.Kernel.Skeleton
import proofs.«130582_j40767829573965_2_alg».proof.Proof.Gen.Kernel.Points
import proofs.«130582_j40767829573965_2_alg».proof.Proof.KFrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A full share of a buffer is three parts: its left half and the two halves of its right half. -/
theorem share3 {ℓ : Loc nD τ sig} (f : Buf (Elt F) ℓ) :
    ((ℓ ↦{fullShare} f : sProp 𝕄)) = iprop((ℓ ↦{(fullShare : PosShare TreeShare).left} f) ∗ (ℓ ↦{(fullShare : PosShare TreeShare).right.left} f) ∗ ℓ ↦{(fullShare : PosShare TreeShare).right.right} f) := by
  have h1 : (ℓ ↦{fullShare} f : sProp 𝕄) ⊣⊢ iprop((ℓ ↦{(fullShare : PosShare TreeShare).left} f) ∗ ℓ ↦{(fullShare : PosShare TreeShare).right} f) :=
    pointsTo_share (PosShare.mem_left_op_right fullShare)
  have h2 : (ℓ ↦{(fullShare : PosShare TreeShare).right} f : sProp 𝕄) ⊣⊢ iprop((ℓ ↦{(fullShare : PosShare TreeShare).right.left} f) ∗ ℓ ↦{(fullShare : PosShare TreeShare).right.right} f) :=
    pointsTo_share (PosShare.mem_left_op_right (fullShare : PosShare TreeShare).right)
  rw [equiv_iff.mp ⟨h1.1, h1.2⟩, equiv_iff.mp ⟨h2.1, h2.2⟩]

/-- The distinct buffers behind the region's four windows are two. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6)) := by
  unfold Pipeline.arrBufs
  exact bigSep_eq_bigSepL_of_eq [main_v5, main_v6] (by decide) (by decide) _

theorem sep_assoc_eq {M : Type} [URA M] (P Q R : sProp M) : iprop((P ∗ Q) ∗ R) = iprop(P ∗ (Q ∗ R)) :=
  Idealize.SL.BI.sep_assoc.antisymm Idealize.SL.BI.sep_assoc'

/-- The region's four windowed arrays, the readers' at V of the shared array and the writer's at V of the result array,
    are those two buffers whole. -/
theorem arrays1_eq (c : Dev nD) (dat : Dat τ (Elt F) Unit ℕ (UR sig nD τ) ℕ cfg1 c)
    (hq0 : dat.q 0 = (fullShare : PosShare TreeShare).left) (hq1 : dat.q 1 = (fullShare : PosShare TreeShare).right.left)
    (hq2 : dat.q 2 = (fullShare : PosShare TreeShare).right.right)
    (V : (b : Ref sig .tc) → Buf (Elt F) ((c : Thread nD τ).loc b))
    (Fv : (w : Fin cfg1.W) → Buf (Elt F) ((cfg1.win w).arr.view.loc (c : Thread nD τ)))
    (hF : ∀ w, Fv w = V (Pipeline.arrRef spec1 w)) :
    (dat.arrays Fv : sProp 𝕄) = iprop((((c : Thread nD τ).loc main_v5) ↦{fullShare} V main_v5) ∗ (((c : Thread nD τ).loc main_v6) ↦{fullShare} V main_v6)) := by
  have hs0 : dat.share 0 = (fullShare : PosShare TreeShare).left := by unfold Dat.share; exact (if_neg (by decide)).trans hq0
  have hs1 : dat.share 1 = (fullShare : PosShare TreeShare).right.left := by unfold Dat.share; exact (if_neg (by decide)).trans hq1
  have hs2 : dat.share 2 = (fullShare : PosShare TreeShare).right.right := by unfold Dat.share; exact (if_neg (by decide)).trans hq2
  have hs3 : dat.share 3 = fullShare := by unfold Dat.share; exact if_pos (by decide)
  have e0 : (cfg1.win 0).arr.view.set = Finset.univ := (arr_whole1 0).set_eq_univ
  have e1 : (cfg1.win 1).arr.view.set = Finset.univ := (arr_whole1 1).set_eq_univ
  have e2 : (cfg1.win 2).arr.view.set = Finset.univ := (arr_whole1 2).set_eq_univ
  have e3 : (cfg1.win 3).arr.view.set = Finset.univ := (arr_whole1 3).set_eq_univ
  unfold Dat.arrays
  rw [bigSep_W1, hF 0, hF 1, hF 2, hF 3, share3 (V main_v5), hs0, hs1, hs2, hs3, e0, e3, sep_assoc_eq, sep_assoc_eq]

/-- A core's top-level buffers at V are the region's windowed arrays at V beside the buffers the region does not touch. -/
theorem unscopedBufs1_eq (c : Dev nD) (dat : Dat τ (Elt F) Unit ℕ (UR sig nD τ) ℕ cfg1 c)
    (hq0 : dat.q 0 = (fullShare : PosShare TreeShare).left) (hq1 : dat.q 1 = (fullShare : PosShare TreeShare).right.left)
    (hq2 : dat.q 2 = (fullShare : PosShare TreeShare).right.right)
    (V : (b : Ref sig .tc) → Buf (Elt F) ((c : Thread nD τ).loc b))
    (Fv : (w : Fin cfg1.W) → Buf (Elt F) ((cfg1.win w).arr.view.loc (c : Thread nD τ)))
    (hF : ∀ w, Fv w = V (Pipeline.arrRef spec1 w)) :
    (unscopedBufs c V : sProp 𝕄) = iprop(dat.arrays Fv ∗ Pipeline.unscopedRest spec1 c V) := by
  rw [arrays1_eq c dat hq0 hq1 hq2 V Fv hF, ← arrBufs1_eq c V]
  exact Pipeline.unscopedBufs_split₀ cfgs 1 winFacts₀1.arr_unscoped c V

end Cert.Kernel.Hand

end
-- ==== Proof.KFrameRun.lean ====
/-
  The whole run: the host operations and the two regions in order, from the launch to the return.

  Between two items a core holds every top-level buffer whole at known contents: the launch memory; then the host
  operations' results folded in; after the first region its result array at what the write-backs leave; after the
  reshape between the regions that array re-laid; after the second region the final result. Each region takes its
  windowed arrays out of that state at entry and puts them back at exit (the second region's three readers of one
  array each take a third of it). The run ends with every top-level buffer at the last contents, from which the
  arguments read back as launched.
-/
import proofs.«130582_j40767829573965_2_alg».proof.Proof.Gen.Kernel.Launch
import proofs.«130582_j40767829573965_2_alg».proof.Proof.Gen.Kernel.Skeleton
import proofs.«130582_j40767829573965_2_alg».proof.Proof.Gen.Kernel.Points
import proofs.«130582_j40767829573965_2_alg».proof.Proof.KFrameR0
import proofs.«130582_j40767829573965_2_alg».proof.Proof.KFrameR1
import proofs.«130582_j40767829573965_2_alg».proof.Proof.KFrameShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 : Dev nD → Valuation τ sig (Elt F) := fun c b => (s₀ m ρ).mem ((c : Dev nD), b)
/-- After the first host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape between the regions (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit: the result array at what the pipeline leaves, every other buffer as entered (the
    shared input array is only read). -/
def W4 (c : Dev nD) : Valuation τ sig (Elt F) :=
  Function.update (W3 m ρ c) (Proc.devRef .tc main_v6) ((dat1 (V3 m ρ) c).arrAt 3 cfg1.N)
theorem W4_v6 (c : Dev nD) : W4 m ρ c (Proc.devRef .tc main_v6) = (dat1 (V3 m ρ) c).arrAt 3 cfg1.N := by
  unfold W4; exact Function.update_self _ _ _
theorem W4_of_ne (c : Dev nD) (b : Ref sig .tc) (hb : b ≠ main_v6) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
theorem hF1 (c : Dev nD) : ∀ w : Fin cfg1.W, (dat1 (V3 m ρ) c).arrAt w cfg1.N = V4 m ρ c (Pipeline.arrRef spec1 w)
  | ⟨0, _⟩ => (((dat1 (V3 m ρ) c).arrAt_in 0 rfl _).trans (A_eq1 (V3 m ρ) c 0)).trans (W4_of_ne m ρ c main_v5 (by decide)).symm
  | ⟨1, _⟩ => (((dat1 (V3 m ρ) c).arrAt_in 1 rfl _).trans (A_eq1 (V3 m ρ) c 1)).trans (W4_of_ne m ρ c main_v5 (by decide)).symm
  | ⟨2, _⟩ => (((dat1 (V3 m ρ) c).arrAt_in 2 rfl _).trans (A_eq1 (V3 m ρ) c 2)).trans (W4_of_ne m ρ c main_v5 (by decide)).symm
  | ⟨3, _⟩ => (W4_v6 m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: its four distinct arrays split out of the top-level buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: the shared input array taken out of the top-level buffers in three thirds, one per reader, and the
    result array whole; at the exit the thirds are joined again and the result array is put back at what the pipeline left. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) :=
      Entails.of_eq (unscopedBufs1_eq c (dat1 (V3 m ρ) c) rfl rfl rfl (V3 m ρ c) _ (fun _ => rfl))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [unscopedBufs1_eq c (dat1 (V3 m ρ) c) rfl rfl rfl (V4 m ρ c) ((dat1 (V3 m ρ) c).arrAt · cfg1.N) (hF1 m ρ c)]
      refine sep_mono .rfl (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every top-level buffer of every core at the last contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.FrameR0.lean ====
/-
  The first region (the projection kernel), at the contents V the region is entered with.

  At grid point t the body reads three whole staging buffers — rows 512 t … 512 t + 511 of the flattened activation,
  the whole weight, the bias row — and writes one: the block of 512 rows of the projection. Nothing is kept between
  points. This module states what the output buffer holds after the body as a function of the three input blocks, runs
  the body once symbolically, and packages the result as the pipeline's proof data with its body obligation.
-/
import proofs.«130582_j40767829573965_2_alg».proof.Proof.Gen.KernelIdeal.Launch
import proofs.«130582_j40767829573965_2_alg».proof.Proof.Gen.KernelIdeal.Skeleton
import proofs.«130582_j40767829573965_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S512x1024 := Rect.unit (s := S512x1024) ![0, 0] S512x1024.size inb_S512x1024_S512x1024_0_0
abbrev rw0 : Rect S3072x1024 := Rect.unit (s := S3072x1024) ![0, 0] S3072x1024.size inb_S3072x1024_S3072x1024_0_0
abbrev rb0 : Rect S1x3072 := Rect.unit (s := S1x3072) ![0, 0] S1x3072.size inb_S1x3072_S1x3072_0_0
abbrev ro0 : Rect S512x3072 := Rect.unit (s := S512x3072) ![0, 0] S512x3072.size inb_S512x3072_S512x3072_0_0

/-- The output buffer after the body: its one store, of the projection of the three loaded blocks. -/
def out0_3 (x0 : Vec F S512x1024 .bf16) (x1 : Vec F S3072x1024 .bf16) (x2 : Vec F S1x3072 .f32) : Vec F S512x3072 .bf16 :=
  View.canon [⟨ro0, k0_pay1 (View.ld x0 rx0) (View.ld x1 rw0) (View.ld x2 rb0)⟩]

/-- The store is of the whole buffer, so it covers it. -/
theorem cover0_3 (p0 : Vec F S512x3072 .bf16) (y : S512x3072.Idx) :
    ∃ pc ∈ ([⟨ro0, p0⟩] : List (View.Piece (Elt F) S512x3072 .bf16)), y ∈ pc.1.set :=
  View.cover_of_tiled [⟨ro0, p0⟩] S512x3072.size (by rfl) y

set_option maxHeartbeats 1000000 in
/-- The body on whole staging buffers, the inputs at x0, x1, x2 and the output at anything, runs to the continuation
    with the inputs as they were and the output at out0_3 of them. -/
theorem sound_kernel0 (c : Dev nD) (E : Set ℕ) (i : grid0.Coords) (arg1 : Memref sig .tc .vmem S512x1024 .bf16) (harg1 : arg1.IsWhole)
    (arg2 : Memref sig .tc .vmem S3072x1024 .bf16) (harg2 : arg2.IsWhole) (arg3 : Memref sig .tc .vmem S1x3072 .f32) (harg3 : arg3.IsWhole)
    (arg4 : Memref sig .tc .vmem S512x3072 .bf16) (harg4 : arg4.IsWhole)
    (x0 : Vec F S512x1024 .bf16) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core c: the arrays as the region finds them; after the body at point t each input's
    buffer at its block and the output's at out0_3 of the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameR1.lean ====
/-
  The second region (the attention kernel), at the contents V the region is entered with.

  At grid point t = (batch, head pair, row tile) the body reads three whole staging buffers — a tile of 512 query rows
  and all 2048 key rows and value rows, each 128 lanes wide: the two heads of the pair side by side — and writes the
  output tile in two halves: lanes 0..63 from the first head, lanes 64..127 from the second. The two stores tile the
  buffer. Nothing is kept between points. This module states what the output buffer holds after the body as a function
  of the three input blocks, runs the body once symbolically, and packages the result as the pipeline's proof data. The
  three input windows read one array; each holds it at a share of its own (a third of the whole, by two halvings).
-/
import proofs.«130582_j40767829573965_2_alg».proof.Proof.Gen.KernelIdeal.Launch
import proofs.«130582_j40767829573965_2_alg».proof.Proof.Gen.KernelIdeal.Skeleton
import proofs.«130582_j40767829573965_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rq1 : Rect S1x512x128 := Rect.unit (s := S1x512x128) ![0, 0, 0] S1x512x128.size inb_S1x512x128_S1x512x128_0_0_0
abbrev rk1 : Rect S1x2048x128 := Rect.unit (s := S1x2048x128) ![0, 0, 0] S1x2048x128.size inb_S1x2048x128_S1x2048x128_0_0_0
abbrev rlo1 : Rect S1x512x128 := Rect.unit (s := S1x512x128) ![0, 0, 0] S1x512x64.size inb_S1x512x128_S1x512x64_0_0_0
abbrev rhi1 : Rect S1x512x128 := Rect.unit (s := S1x512x128) ![0, 0, 64] S1x512x64.size inb_S1x512x128_S1x512x64_0_0_64

/-- The output buffer after the body: its two stores as pieces, the last first. -/
def out1_3 (x0 : Vec F S1x512x128 .bf16) (x1 : Vec F S1x2048x128 .bf16) (x2 : Vec F S1x2048x128 .bf16) : Vec F S1x512x128 .f32 :=
  View.canon [⟨rhi1, k1_pay1 (k1_pay6 (View.ld x2 rk1)) (k1_pay7 (View.ld x0 rq1) (View.ld x1 rk1))⟩,
    ⟨rlo1, k1_pay5 (View.ld x0 rq1) (View.ld x1 rk1) (View.ld x2 rk1)⟩]

/-- The two half-tiles tile the buffer, so they cover it. -/
theorem cover1_3 (p0 : Vec F S1x512x64 .f32) (p1 : Vec F S1x512x64 .f32) (y : S1x512x128.Idx) :
    ∃ pc ∈ ([⟨rhi1, p0⟩, ⟨rlo1, p1⟩] : List (View.Piece (Elt F) S1x512x128 .f32)), y ∈ pc.1.set :=
  View.cover_of_tiled [⟨rhi1, p0⟩, ⟨rlo1, p1⟩] S1x512x64.size (by rfl) y

set_option maxHeartbeats 1000000 in
/-- The body on whole staging buffers, the inputs at x0, x1, x2 and the output at anything, runs to the continuation
    with the inputs as they were and the output at out1_3 of them. -/
theorem sound_kernel1 (c : Dev nD) (E : Set ℕ) (i : grid1.Coords) (arg3 : Memref sig .tc .vmem S1x512x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x512x128 .f32) (harg6 : arg6.IsWhole)
    (x0 : Vec F S1x512x128 .bf16) (x1 : Vec F S1x2048x128 .bf16) (x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-- The pipeline's proof data on core c: the arrays as the region finds them; after the body at point t each input's
    buffer at its block and the output's at out1_3 of the input blocks; the scoped rest and the generator register
    untouched; nothing owed; the three readers of the shared array at a third of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => (fullShare : PosShare TreeShare).left
    | ⟨1, _⟩ => (fullShare : PosShare TreeShare).right.left
    | ⟨2, _⟩ => (fullShare : PosShare TreeShare).right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameShare.lean ====
/-
  One array read through three windows.

  The attention region hands ONE array (the projected activations) to three input windows and a second array (the result)
  to its output window. A core holds all its top-level buffers whole; the three readers each take a third of the shared
  array — the whole halved, and the second half halved again — and give it back at the end. This module states that
  exchange as an equation: a core's top-level buffers at contents V are the region's four windowed arrays at V, at those
  shares, beside the buffers the region does not touch.
-/
import proofs.«130582_j40767829573965_2_alg».proof.Proof.Gen.KernelIdeal.Launch
import proofs.«130582_j40767829573965_2_alg».proof.Proof.Gen.KernelIdeal.Skeleton
import proofs.«130582_j40767829573965_2_alg».proof.Proof.Gen.KernelIdeal.Points
import proofs.«130582_j40767829573965_2_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A full share of a buffer is three parts: its left half and the two halves of its right half. -/
theorem share3 {ℓ : Loc nD τ sig} (f : Buf (Elt F) ℓ) :
    ((ℓ ↦{fullShare} f : sProp 𝕄)) = iprop((ℓ ↦{(fullShare : PosShare TreeShare).left} f) ∗ (ℓ ↦{(fullShare : PosShare TreeShare).right.left} f) ∗ ℓ ↦{(fullShare : PosShare TreeShare).right.right} f) := by
  have h1 : (ℓ ↦{fullShare} f : sProp 𝕄) ⊣⊢ iprop((ℓ ↦{(fullShare : PosShare TreeShare).left} f) ∗ ℓ ↦{(fullShare : PosShare TreeShare).right} f) :=
    pointsTo_share (PosShare.mem_left_op_right fullShare)
  have h2 : (ℓ ↦{(fullShare : PosShare TreeShare).right} f : sProp 𝕄) ⊣⊢ iprop((ℓ ↦{(fullShare : PosShare TreeShare).right.left} f) ∗ ℓ ↦{(fullShare : PosShare TreeShare).right.right} f) :=
    pointsTo_share (PosShare.mem_left_op_right (fullShare : PosShare TreeShare).right)
  rw [equiv_iff.mp ⟨h1.1, h1.2⟩, equiv_iff.mp ⟨h2.1, h2.2⟩]

/-- The distinct buffers behind the region's four windows are two. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6)) := by
  unfold Pipeline.arrBufs
  exact bigSep_eq_bigSepL_of_eq [main_v5, main_v6] (by decide) (by decide) _

theorem sep_assoc_eq {M : Type} [URA M] (P Q R : sProp M) : iprop((P ∗ Q) ∗ R) = iprop(P ∗ (Q ∗ R)) :=
  Idealize.SL.BI.sep_assoc.antisymm Idealize.SL.BI.sep_assoc'

/-- The region's four windowed arrays, the readers' at V of the shared array and the writer's at V of the result array,
    are those two buffers whole. -/
theorem arrays1_eq (c : Dev nD) (dat : Dat τ (Elt F) Unit ℕ (UR sig nD τ) ℕ cfg1 c)
    (hq0 : dat.q 0 = (fullShare : PosShare TreeShare).left) (hq1 : dat.q 1 = (fullShare : PosShare TreeShare).right.left)
    (hq2 : dat.q 2 = (fullShare : PosShare TreeShare).right.right)
    (V : (b : Ref sig .tc) → Buf (Elt F) ((c : Thread nD τ).loc b))
    (Fv : (w : Fin cfg1.W) → Buf (Elt F) ((cfg1.win w).arr.view.loc (c : Thread nD τ)))
    (hF : ∀ w, Fv w = V (Pipeline.arrRef spec1 w)) :
    (dat.arrays Fv : sProp 𝕄) = iprop((((c : Thread nD τ).loc main_v5) ↦{fullShare} V main_v5) ∗ (((c : Thread nD τ).loc main_v6) ↦{fullShare} V main_v6)) := by
  have hs0 : dat.share 0 = (fullShare : PosShare TreeShare).left := by unfold Dat.share; exact (if_neg (by decide)).trans hq0
  have hs1 : dat.share 1 = (fullShare : PosShare TreeShare).right.left := by unfold Dat.share; exact (if_neg (by decide)).trans hq1
  have hs2 : dat.share 2 = (fullShare : PosShare TreeShare).right.right := by unfold Dat.share; exact (if_neg (by decide)).trans hq2
  have hs3 : dat.share 3 = fullShare := by unfold Dat.share; exact if_pos (by decide)
  have e0 : (cfg1.win 0).arr.view.set = Finset.univ := (arr_whole1 0).set_eq_univ
  have e1 : (cfg1.win 1).arr.view.set = Finset.univ := (arr_whole1 1).set_eq_univ
  have e2 : (cfg1.win 2).arr.view.set = Finset.univ := (arr_whole1 2).set_eq_univ
  have e3 : (cfg1.win 3).arr.view.set = Finset.univ := (arr_whole1 3).set_eq_univ
  unfold Dat.arrays
  rw [bigSep_W1, hF 0, hF 1, hF 2, hF 3, share3 (V main_v5), hs0, hs1, hs2, hs3, e0, e3, sep_assoc_eq, sep_assoc_eq]

/-- A core's top-level buffers at V are the region's windowed arrays at V beside the buffers the region does not touch. -/
theorem unscopedBufs1_eq (c : Dev nD) (dat : Dat τ (Elt F) Unit ℕ (UR sig nD τ) ℕ cfg1 c)
    (hq0 : dat.q 0 = (fullShare : PosShare TreeShare).left) (hq1 : dat.q 1 = (fullShare : PosShare TreeShare).right.left)
    (hq2 : dat.q 2 = (fullShare : PosShare TreeShare).right.right)
    (V : (b : Ref sig .tc) → Buf (Elt F) ((c : Thread nD τ).loc b))
    (Fv : (w : Fin cfg1.W) → Buf (Elt F) ((cfg1.win w).arr.view.loc (c : Thread nD τ)))
    (hF : ∀ w, Fv w = V (Pipeline.arrRef spec1 w)) :
    (unscopedBufs c V : sProp 𝕄) = iprop(dat.arrays Fv ∗ Pipeline.unscopedRest spec1 c V) := by
  rw [arrays1_eq c dat hq0 hq1 hq2 V Fv hF, ← arrBufs1_eq c V]
  exact Pipeline.unscopedBufs_split₀ cfgs 1 winFacts₀1.arr_unscoped c V

end Cert.KernelIdeal.Hand

end
-- ==== Proof.FrameRun.lean ====
/-
  The whole run: the host operations and the two regions in order, from the launch to the return.

  Between two items a core holds every top-level buffer whole at known contents: the launch memory; then the host
  operations' results folded in; after the first region its result array at what the write-backs leave; after the
  reshape between the regions that array re-laid; after the second region the final result. Each region takes its
  windowed arrays out of that state at entry and puts them back at exit (the second region's three readers of one
  array each take a third of it). The run ends with every top-level buffer at the last contents, from which the
  arguments read back as launched.
-/
import proofs.«130582_j40767829573965_2_alg».proof.Proof.Gen.KernelIdeal.Launch
import proofs.«130582_j40767829573965_2_alg».proof.Proof.Gen.KernelIdeal.Skeleton
import proofs.«130582_j40767829573965_2_alg».proof.Proof.Gen.KernelIdeal.Points
import proofs.«130582_j40767829573965_2_alg».proof.Proof.FrameR0
import proofs.«130582_j40767829573965_2_alg».proof.Proof.FrameR1
import proofs.«130582_j40767829573965_2_alg».proof.Proof.FrameShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 : Dev nD → Valuation τ sig (Elt F) := fun c b => (s₀ m ρ).mem ((c : Dev nD), b)
/-- After the first host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape between the regions (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit: the result array at what the pipeline leaves, every other buffer as entered (the
    shared input array is only read). -/
def W4 (c : Dev nD) : Valuation τ sig (Elt F) :=
  Function.update (W3 m ρ c) (Proc.devRef .tc main_v6) ((dat1 (V3 m ρ) c).arrAt 3 cfg1.N)
theorem W4_v6 (c : Dev nD) : W4 m ρ c (Proc.devRef .tc main_v6) = (dat1 (V3 m ρ) c).arrAt 3 cfg1.N := by
  unfold W4; exact Function.update_self _ _ _
theorem W4_of_ne (c : Dev nD) (b : Ref sig .tc) (hb : b ≠ main_v6) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
theorem hF1 (c : Dev nD) : ∀ w : Fin cfg1.W, (dat1 (V3 m ρ) c).arrAt w cfg1.N = V4 m ρ c (Pipeline.arrRef spec1 w)
  | ⟨0, _⟩ => (((dat1 (V3 m ρ) c).arrAt_in 0 rfl _).trans (A_eq1 (V3 m ρ) c 0)).trans (W4_of_ne m ρ c main_v5 (by decide)).symm
  | ⟨1, _⟩ => (((dat1 (V3 m ρ) c).arrAt_in 1 rfl _).trans (A_eq1 (V3 m ρ) c 1)).trans (W4_of_ne m ρ c main_v5 (by decide)).symm
  | ⟨2, _⟩ => (((dat1 (V3 m ρ) c).arrAt_in 2 rfl _).trans (A_eq1 (V3 m ρ) c 2)).trans (W4_of_ne m ρ c main_v5 (by decide)).symm
  | ⟨3, _⟩ => (W4_v6 m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: its four distinct arrays split out of the top-level buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: the shared input array taken out of the top-level buffers in three thirds, one per reader, and the
    result array whole; at the exit the thirds are joined again and the result array is put back at what the pipeline left. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) :=
      Entails.of_eq (unscopedBufs1_eq c (dat1 (V3 m ρ) c) rfl rfl rfl (V3 m ρ c) _ (fun _ => rfl))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [unscopedBufs1_eq c (dat1 (V3 m ρ) c) rfl rfl rfl (V4 m ρ c) ((dat1 (V3 m ρ) c).arrAt · cfg1.N) (hF1 m ρ c)]
      refine sep_mono .rfl (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every top-level buffer of every core at the last contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.Spec.lean ====
/-
  The mathematical specification of the attention block, over the extended reals.

  Inputs: an activation x[b, n, e] (2 x 2048 x 1024), a weight w[f, e] (3072 x 1024) and a bias[f] (3072).
  * The projection: proj(b, n, f) = (sum over e of x(b, n, e) * w(f, e)) + bias(f). Its 3072 features are three
    groups of 1024: queries, keys, values; each group is 16 heads of 64 features.
  * For a head h, a query row n and a key row j the score is (sum over e < 64 of q(b, n, h, e) * k(b, j, h, e)) times
    the scale (the literal 2^-5).
  * A row of scores s(j) and a column of values v(j), j < 2048, give the attention entry
      sum over j of (exp(s j - M) / (sum over k of exp(s k - M))) * v j,   M the maximum of the scores from -inf.
  * The result array has entry (b, n, h * 64 + d) = the attention entry of head h's scores of row n against
    value feature d of head h.
  Both programs compute exactly this; sums are finite sums in a commutative monoid, so their order is immaterial.
-/
import Idealize.ShloMosaic.PureOps.Ideal
import Idealize.ShloMosaic.Lib.ValueIdx

noncomputable section

namespace Cert.Spec

open Idealize.ShloMosaic Idealize.ShloMosaic.ValueIdx

abbrev SX : Shape := ⟨3, ![2, 2048, 1024]⟩
abbrev SW : Shape := ⟨2, ![3072, 1024]⟩
abbrev SB : Shape := ⟨1, ![3072]⟩

/-- The start of every maximum: the f32 word of minus infinity, read as an extended real. -/
def negInf : EReal := Ideal.ofBits .f32 0xFF800000#32
/-- The score scale: the f32 word of 2^-5 = 1/32, read as an extended real. -/
def scale : EReal := Ideal.ofBits .f32 0x3D000000#32

/-- The projection's entry (b, n, f). -/
def proj (x : SX.Idx → EReal) (w : SW.Idx → EReal) (bias : SB.Idx → EReal) (b : Fin 2) (n : Fin 2048) (f : Fin 3072) : EReal :=
  (∑ e : Fin 1024, x (ix3 b n e) * w (ix2 f e)) + bias (ix1 f)

/-- The maximum of a row of scores, from minus infinity. -/
def rowMax (s : Fin 2048 → EReal) : EReal := (Finset.univ : Finset (Fin 2048)).fold max negInf s

/-- One attention entry from a row of scores and a column of values. -/
def attend (s v : Fin 2048 → EReal) : EReal :=
  ∑ j : Fin 2048, Ideal.div (Ideal.exp (s j - rowMax s)) (∑ k : Fin 2048, Ideal.exp (s k - rowMax s)) * v j

/-- Feature e of head h among the queries, the keys, the values of the projection. -/
def qcol (h : Fin 16) (e : Fin 64) : Fin 3072 := ⟨h.val * 64 + e.val, by have := h.isLt; have := e.isLt; omega⟩
def kcol (h : Fin 16) (e : Fin 64) : Fin 3072 := ⟨1024 + (h.val * 64 + e.val), by have := h.isLt; have := e.isLt; omega⟩
def vcol (h : Fin 16) (e : Fin 64) : Fin 3072 := ⟨2048 + (h.val * 64 + e.val), by have := h.isLt; have := e.isLt; omega⟩

/-- Lane e of the first, resp. second, head of a pair of heads packed on 128 lanes. -/
def lo (e : Fin 64) : Fin 128 := ⟨e.val, by have := e.isLt; omega⟩
def hi (e : Fin 64) : Fin 128 := ⟨64 + e.val, by have := e.isLt; omega⟩

/-- The score of query row n against key row j in head h of batch b. -/
def score (x : SX.Idx → EReal) (w : SW.Idx → EReal) (bias : SB.Idx → EReal) (b : Fin 2) (h : Fin 16) (n j : Fin 2048) : EReal :=
  (∑ e : Fin 64, proj x w bias b n (qcol h e) * proj x w bias b j (kcol h e)) * scale

/-- The result's entry for batch b, row n, head h, feature d. -/
def head (x : SX.Idx → EReal) (w : SW.Idx → EReal) (bias : SB.Idx → EReal) (b : Fin 2) (n : Fin 2048) (h : Fin 16) (d : Fin 64) : EReal :=
  attend (fun j => score x w bias b h n j) (fun j => proj x w bias b j (vcol h d))

/-- The result array: entry (b, n, c) is head c / 64, feature c % 64. -/
def G (x : SX.Idx → EReal) (w : SW.Idx → EReal) (bias : SB.Idx → EReal) : SX.Idx → EReal := fun i =>
  head x w bias (i 0) (i 1) ⟨(i 2).val / 64, by have := (i 2).isLt; show (i 2).val / 64 < 16; have : (i 2).val < 1024 := (i 2).isLt; omega⟩
    ⟨(i 2).val % 64, Nat.mod_lt _ (by decide)⟩

theorem G_ix3 (x : SX.Idx → EReal) (w : SW.Idx → EReal) (bias : SB.Idx → EReal) (b : Fin 2) (n : Fin 2048) (c : Fin 1024) :
    G x w bias (ix3 b n c) = head x w bias b n ⟨c.val / 64, by have := c.isLt; omega⟩ ⟨c.val % 64, Nat.mod_lt _ (by decide)⟩ := rfl

/-- The same at a head and a feature. -/
theorem G_head (x : SX.Idx → EReal) (w : SW.Idx → EReal) (bias : SB.Idx → EReal) (b : Fin 2) (n : Fin 2048) (h : Fin 16) (d : Fin 64) :
    G x w bias (ix3 b n (⟨h.val * 64 + d.val, by have := h.isLt; have := d.isLt; omega⟩ : Fin 1024)) = head x w bias b n h d := by
  rw [G_ix3]
  have hh := h.isLt; have hd := d.isLt
  congr 1
  · exact Fin.ext (by show (h.val * 64 + d.val) / 64 = h.val; omega)
  · exact Fin.ext (by show (h.val * 64 + d.val) % 64 = d.val; omega)

end Cert.Spec

end
-- ==== Proof.HostStages.lean ====
/-
  The host operations around the regions, read at an index, over the extended reals.

  Before the first region the activation is flattened to 4096 rows and the bias becomes a one-row matrix (changes of
  float format are the identity here); between the regions the projection's 4096 rows are re-laid as 2 batches of 2048.
  Reading each at coordinates gives the projection array in the specification's form.
-/
import proofs.«130582_j40767829573965_2_alg».proof.Proof.FrameRun
import proofs.«130582_j40767829573965_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

theorem W1_v1 (c : Dev nD) : (W1 m ρ c (Proc.devRef .tc main_v1) : FVec Ideal S4096x1024 .bf16)
    = (truncf (F := Ideal) .bf16 (shapeCast S4096x1024 (m ((c : Thread nD τ).loc main_arg0) : FVec Ideal S2x2048x1024 .f32) shapeCasts_S2x2048x1024_S4096x1024) bitsLt_bf16_f32 : FVec Ideal S4096x1024 .bf16) := by
  dsimp only [W1, hostOps0]; after_results <;> rfl

theorem W1_v2 (c : Dev nD) : (W1 m ρ c (Proc.devRef .tc main_v2) : FVec Ideal S3072x1024 .bf16)
    = (truncf (F := Ideal) .bf16 (m ((c : Thread nD τ).loc main_arg1) : FVec Ideal S3072x1024 .f32) bitsLt_bf16_f32 : FVec Ideal S3072x1024 .bf16) := by
  dsimp only [W1, hostOps0]; after_results <;> rfl

theorem W1_v3 (c : Dev nD) : (W1 m ρ c (Proc.devRef .tc main_v3) : S1x3072.Idx → EReal)
    = shapeCast S1x3072 (m ((c : Thread nD τ).loc main_arg2)) shapeCasts_S3072_S1x3072 := by
  dsimp only [W1, hostOps0]; after_results <;> rfl

theorem W3_v5 (c : Dev nD) : (W3 m ρ c (Proc.devRef .tc main_v5) : S2x2048x3072.Idx → EReal)
    = shapeCast S2x2048x3072 (W2 m ρ c (Proc.devRef .tc main_v4)) shapeCasts_S4096x3072_S2x2048x3072 := by
  dsimp only [W3, hostOps1]; after_results <;> rfl

/-- The three re-layings read at coordinates, for any contents. -/
theorem flat_apply (y : S2x2048x1024.Idx → EReal) (b : Fin 2) (n : Fin 2048) (e : Fin 1024) :
    shapeCast S4096x1024 y shapeCasts_S2x2048x1024_S4096x1024 (ix2 (⟨b.val * 2048 + n.val, by have := b.isLt; have := n.isLt; omega⟩ : Fin 4096) e) = y (ix3 b n e) :=
  shapeCast_apply y shapeCasts_S2x2048x1024_S4096x1024 _ (ix3 b n e) (by rw [Shape.rowMajor_val_two, Shape.rowMajor_val_three]; rfl)
theorem row_apply (y : S3072.Idx → EReal) (f : Fin 3072) :
    shapeCast S1x3072 y shapeCasts_S3072_S1x3072 (ix2 (0 : Fin 1) f) = y (ix1 f) :=
  shapeCast_apply y shapeCasts_S3072_S1x3072 _ (ix1 f) (by rw [Shape.rowMajor_val_two, Shape.rowMajor_val_one]; show f.val = 0 * 3072 + f.val; omega)
theorem batch_apply (y : S4096x3072.Idx → EReal) (b : Fin 2) (n : Fin 2048) (f : Fin 3072) :
    shapeCast S2x2048x3072 y shapeCasts_S4096x3072_S2x2048x3072 (ix3 b n f) = y (ix2 (⟨b.val * 2048 + n.val, by have := b.isLt; have := n.isLt; omega⟩ : Fin 4096) f) :=
  shapeCast_apply y shapeCasts_S4096x3072_S2x2048x3072 _ _ (by rw [Shape.rowMajor_val_two, Shape.rowMajor_val_three]; rfl)

/-- Row b * 2048 + n of the flattened activation is row (b, n) of the activation. -/
theorem V1_v1_apply (c : Dev nD) (b : Fin 2) (n : Fin 2048) (e : Fin 1024) :
    (V1 m ρ c main_v1 : S4096x1024.Idx → EReal) (ix2 (⟨b.val * 2048 + n.val, by have := b.isLt; have := n.isLt; omega⟩ : Fin 4096) e)
      = (m ((c : Thread nD τ).loc main_arg0) : S2x2048x1024.Idx → EReal) (ix3 b n e) := by
  show (W1 m ρ c (Proc.devRef .tc main_v1) : FVec Ideal S4096x1024 .bf16) _ = _
  rw [W1_v1]
  exact flat_apply _ b n e

/-- The weight is unchanged by the change of format. -/
theorem V1_v2_apply (c : Dev nD) (i : S3072x1024.Idx) :
    (V1 m ρ c main_v2 : S3072x1024.Idx → EReal) i = (m ((c : Thread nD τ).loc main_arg1) : S3072x1024.Idx → EReal) i := by
  show (W1 m ρ c (Proc.devRef .tc main_v2) : FVec Ideal S3072x1024 .bf16) _ = _
  rw [W1_v2]; rfl

/-- The one-row bias matrix at (0, f) is the bias at f. -/
theorem V1_v3_apply (c : Dev nD) (f : Fin 3072) :
    (V1 m ρ c main_v3 : S1x3072.Idx → EReal) (ix2 (0 : Fin 1) f) = (m ((c : Thread nD τ).loc main_arg2) : S3072.Idx → EReal) (ix1 f) := by
  show (W1 m ρ c (Proc.devRef .tc main_v3) : S1x3072.Idx → EReal) _ = _
  rw [W1_v3]
  exact row_apply _ f

/-- The re-laid projection at (b, n, f) is the first region's result at (b * 2048 + n, f). -/
theorem V3_v5_apply (c : Dev nD) (b : Fin 2) (n : Fin 2048) (f : Fin 3072) :
    (V3 m ρ c main_v5 : S2x2048x3072.Idx → EReal) (ix3 b n f)
      = (W2 m ρ c (Proc.devRef .tc main_v4) : S4096x3072.Idx → EReal) (ix2 (⟨b.val * 2048 + n.val, by have := b.isLt; have := n.isLt; omega⟩ : Fin 4096) f) := by
  show (W3 m ρ c (Proc.devRef .tc main_v5) : S2x2048x3072.Idx → EReal) _ = _
  rw [W3_v5]
  exact batch_apply _ b n f

end Cert.KernelIdeal.Hand

end
-- ==== Proof.LibMatmulNT.lean ====
/-
  A matrix product that contracts the LAST axis of both operands, accumulated into zero, read at coordinates.

  For `l : [M, K]` and `w : [N, K]` the product `l · wᵀ : [M, N]` has entry `(r, j)` equal to `∑ k, l (r, k) · w (j, k)`:
  the accumulator's zero drops out, and the contraction index, a one-axis multi-index, is re-indexed by its one
  coordinate. The dimension record enters through four coordinate facts (which operand coordinate is the output's row,
  which the output's column, which the contraction's coordinate); for a printed record each is one line.
-/
import Idealize.ShloMosaic.PureOps.Ideal.Laws
import Idealize.ShloMosaic.Lib.ValueIdx

namespace Cert.LibMatmulNT

open Idealize.ShloMosaic Idealize.ShloMosaic.ValueIdx

/-- Entry `(r, j)` of `l · wᵀ` accumulated into the zero splat is `∑ k, l (r, k) · w (j, k)`. -/
theorem matmulNT_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (l : FVec Ideal ⟨2, ![M, K]⟩ φ₁) (w : FVec Ideal ⟨2, ![N, K]⟩ φ₂) (r : Fin M) (j : Fin N) :
    FloatOps.matmul D prec l w (constant (F := Ideal) ⟨2, ![M, N]⟩ .f32 0x00000000#32) (ix2 r j)
      = ∑ k : Fin K, l (ix2 r k) * w (ix2 j k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k := funext fun a => Fin.ext (by
    match a with
    | ⟨0, _⟩ => exact hl0 _ _
    | ⟨1, _⟩ => exact (hl1 _ _).trans hk)
  have er : D.rhsIdx (ix2 r j) ((contrEquiv1 D K hr hs).symm k) = ix2 j k := funext fun a => Fin.ext (by
    match a with
    | ⟨0, _⟩ => exact hr0 _ _
    | ⟨1, _⟩ => exact (hr1 _ _).trans hk)
  rw [el, er]

end Cert.LibMatmulNT
-- ==== Proof.PayProj.lean ====
/-
  The projection kernel's stored value read at an index, over the extended reals.

  The kernel multiplies a block of 512 activation rows by the whole weight, contracting the last axis of both
  (so entry (r, f) is the sum over e of x (r, e) * w (f, e), the accumulator being zero), adds the bias row
  broadcast over the 512 rows, and narrows the format, which is the identity on extended reals.
-/
import proofs.«130582_j40767829573965_2_alg».proof.Proof.Gen.KernelIdeal.Skeleton
import proofs.«130582_j40767829573965_2_alg».proof.Proof.LibMatmulNT
import Idealize.ShloMosaic.Lib.ValueLayout

noncomputable section

namespace Cert.Pay

open Idealize.ShloMosaic Idealize.ShloMosaic.ValueIdx Cert.KernelIdeal

variable [Cert.KernelIdeal.Facts]

/-- Entry (r, f) of the stored block: the contraction of row r of the activations with row f of the weight, plus the
    bias at f. -/
theorem proj_apply (x0 : Vec Ideal S512x1024 .bf16) (w0 : Vec Ideal S3072x1024 .bf16) (b0 : Vec Ideal S1x3072 .f32)
    (r : Fin 512) (f : Fin 3072) :
    Gen.k0_pay1 (F := Ideal) x0 w0 b0 (ix2 r f)
      = (∑ e : Fin 1024, x0 (ix2 r e) * w0 (ix2 f e)) + b0 (ix2 (0 : Fin 1) f) := by
  unfold Gen.k0_pay1
  refine (truncf_apply (ψ := .bf16) _ Gen.bitsLt_bf16_f32 (ix2 r f)).trans ?_
  refine (addf_apply _ _ _).trans ?_
  refine congrArg₂ (· + ·) ?_ ?_
  · rw [shapeCast_self, shapeCast_self]
    exact Cert.LibMatmulNT.matmulNT_zero_apply dot_S512x1024_S3072x1024_S512x3072_1_1_0_0_n_n rfl rfl
      (fun i q => by unfold DotDims.lhsIdx; rw [dif_neg (by decide), dif_pos (by decide)]; rfl)
      (fun i q => dot_S512x1024_S3072x1024_S512x3072_1_1_0_0_n_n.lhsIdx_val_of_single rfl i q)
      (fun i q => by unfold DotDims.rhsIdx; rw [dif_neg (by decide), dif_pos (by decide)]; rfl)
      (fun i q => dot_S512x1024_S3072x1024_S512x3072_1_1_0_0_n_n.rhsIdx_val_of_single rfl i q)
      none x0 w0 r f
  · refine (broadcastTo_1b_ab_apply _ _ r f).trans ?_
    rw [shapeCast_self]

end Cert.Pay

end
-- ==== Proof.ValR0.lean ====
/-
  The first region's output array after the run, as one function of the arrays the region reads.

  Grid point t of the 8 writes back rows 512 t … 512 t + 511 of the [4096, 3072] projection array; it reads rows
  512 t … of the activations, the whole weight and the bias row. Every written block is the block of ONE function of
  the three arrays — entry (r, f) is the contraction of activation row r with weight row f plus the bias at f — and
  the 8 blocks cover the array, so the array ends holding that function.
-/
import proofs.«130582_j40767829573965_2_alg».proof.Proof.FrameR0
import proofs.«130582_j40767829573965_2_alg».proof.Proof.PayProj
import Idealize.ShloMosaic.Lib.Pipeline.Value

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The three arrays the first region reads, as it finds them, at their literal shapes. -/
abbrev arr1 (c : Dev nD) : S4096x1024.Idx → EReal := V c main_v1
abbrev arr2 (c : Dev nD) : S3072x1024.Idx → EReal := V c main_v2
abbrev arr3 (c : Dev nD) : S1x3072.Idx → EReal := V c main_v3

/-- Entry (r, f) of the projection of the whole arrays. -/
def projAt (c : Dev nD) (r : Fin 4096) (f : Fin 3072) : EReal :=
  (∑ e : Fin 1024, arr1 V c (ix2 r e) * arr2 V c (ix2 f e)) + arr3 V c (ix2 (0 : Fin 1) f)

/-- The projection array. -/
def G0 (c : Dev nD) : S4096x3072.Idx → Elt Ideal .bf16 := fun i => projAt V c (i 0) (i 1)

/-- The block indices of the four windows at every grid point: the activations and the result move down one block of
    rows per point, the weight and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activation block at point t is rows 512 t … of the activations. -/
theorem iblk0_0_apply (c : Dev nD) (t : Fin cfg0.N) (p : Fin 512) (e : Fin 1024) (r : Fin 4096)
    (hr : r.val = 512 * t.val + p.val) :
    (iblk0 V c 0 t : Vec Ideal S512x1024 .bf16) (ix2 p e) = arr1 V c (ix2 r e) := by
  obtain ⟨e0, e1, -⟩ := idx_facts0 t
  unfold iblk0
  rw [View.read_apply]
  show V c main_v1 _ = V c main_v1 _
  congr 1
  funext a
  apply Fin.ext
  match a with
  | ⟨0, _⟩ => show win0_0.index t (0 : Fin 2) * 512 + 1 * p.val = r.val; omega
  | ⟨1, _⟩ => show win0_0.index t (1 : Fin 2) * 1024 + 1 * e.val = e.val; omega

/-- The weight block at every point is the weight. -/
theorem iblk0_1_apply (c : Dev nD) (t : Fin cfg0.N) (f : Fin 3072) (e : Fin 1024) :
    (iblk0 V c 1 t : Vec Ideal S3072x1024 .bf16) (ix2 f e) = arr2 V c (ix2 f e) := by
  obtain ⟨-, -, e0, e1, -⟩ := idx_facts0 t
  unfold iblk0
  rw [View.read_apply]
  show V c main_v2 _ = V c main_v2 _
  congr 1
  funext a
  apply Fin.ext
  match a with
  | ⟨0, _⟩ => show win0_1.index t (0 : Fin 2) * 3072 + 1 * f.val = f.val; omega
  | ⟨1, _⟩ => show win0_1.index t (1 : Fin 2) * 1024 + 1 * e.val = e.val; omega

/-- The bias block at every point is the bias row. -/
theorem iblk0_2_apply (c : Dev nD) (t : Fin cfg0.N) (f : Fin 3072) :
    (iblk0 V c 2 t : Vec Ideal S1x3072 .f32) (ix2 (0 : Fin 1) f) = arr3 V c (ix2 (0 : Fin 1) f) := by
  obtain ⟨-, -, -, -, e0, e1, -⟩ := idx_facts0 t
  unfold iblk0
  rw [View.read_apply]
  show V c main_v3 _ = V c main_v3 _
  congr 1
  funext a
  apply Fin.ext
  match a with
  | ⟨0, _⟩ => show win0_2.index t (0 : Fin 2) * 1 + 1 * 0 = 0; omega
  | ⟨1, _⟩ => show win0_2.index t (1 : Fin 2) * 3072 + 1 * f.val = f.val; omega

/-- The stored value at point t, at (p, q), is the projection array at row 512 t + p, column q. -/
theorem block0 (c : Dev nD) (t : Fin cfg0.N) (p : Fin 512) (q : Fin 3072) (i : S4096x3072.Idx)
    (h0 : (i 0).val = 512 * t.val + p.val) (h1 : (i 1).val = q.val) :
    k0_pay1 (F := Ideal) (iblk0 V c 0 t) (iblk0 V c 1 t) (iblk0 V c 2 t) (ix2 p q) = G0 V c i := by
  obtain ⟨r, f, rfl⟩ : ∃ (r : Fin 4096) (f : Fin 3072), i = ix2 r f := ⟨i 0, i 1, eq_ix2 i⟩
  obtain rfl : f = q := Fin.ext h1
  refine (Cert.Pay.proj_apply _ _ _ p f).trans ?_
  show _ = projAt V c r f
  unfold projAt
  exact congrArg₂ (· + ·)
    (Finset.sum_congr rfl fun e _ => congrArg₂ (· * ·) (iblk0_0_apply V c t p e r h0) (iblk0_1_apply V c t f e))
    (iblk0_2_apply V c t f)

/-- What point t writes back is block t of the projection array. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz2]
  simp only [View.ld_unit_zero (S := S512x1024) hz2, View.ld_unit_zero (S := S3072x1024) hz2, View.ld_unit_zero (S := S1x3072) hz2]
  obtain ⟨-, -, -, -, -, -, e0, e1⟩ := idx_facts0 t
  funext j
  show k0_pay1 (F := Ideal) (iblk0 V c 0 t) (iblk0 V c 1 t) (iblk0 V c 2 t) j = G0 V c (((cfg0.win 3).blk t).view.emb j)
  obtain ⟨p, q, rfl⟩ : ∃ (p : Fin 512) (q : Fin 3072), j = ix2 p q := ⟨j 0, j 1, eq_ix2 j⟩
  refine block0 V c t p q _ ?_ ?_
  · show win0_3.index t (0 : Fin 2) * 512 + 1 * p.val = 512 * t.val + p.val; omega
  · show win0_3.index t (1 : Fin 2) * 3072 + 1 * q.val = q.val; omega

/-- An index of the array is in point t's block iff each coordinate is in the block's range on its axis. -/
theorem mem_blk0 (t : Fin cfg0.N) (i : S4096x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v4).slice (win0_3.rect t)).set ↔ _
  rw [View.set_slice_whole, Rect.mem_set_unit]
  exact Iff.rfl

/-- Row r of the array is in the block of point r / 512. -/
theorem cover0 (i : S4096x3072.Idx) :
    ∃ t : Fin cfg0.N, (cfg0.win 3).flush t = true ∧ i ∈ ((cfg0.win 3).blk t).view.set := by
  have hN : cfg0.N = 8 := N_0
  have hi0 : (i 0).val < 4096 := (i 0).isLt
  have hi1 : (i 1).val < 3072 := (i 1).isLt
  refine ⟨⟨(i 0).val / 512, by rw [hN]; omega⟩, flush0_3 _, ?_⟩
  rw [mem_blk0]
  obtain ⟨-, -, -, -, -, -, e0, e1⟩ := idx_facts0 ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 3072 ≤ (i 1).val ∧ (i 1).val < win0_3.index _ (1 : Fin 2) * 3072 + 3072
    rw [e1]; omega

/-- The projection array after the run. -/
theorem final0 (c : Dev nD) : (dat0 (F := Ideal) V c).arrAt 3 cfg0.N = G0 V c :=
  (dat0 (F := Ideal) V c).arrAt_eq_of_cover 3 (G0 V c) (fun t _ => flushed0_eq V c t) (cover0)

/-- Its entry (r, f). -/
theorem proj_array (c : Dev nD) (r : Fin 4096) (f : Fin 3072) :
    (dat0 (F := Ideal) V c).arrAt 3 cfg0.N (ix2 r f)
      = (∑ e : Fin 1024, arr1 V c (ix2 r e) * arr2 V c (ix2 f e)) + arr3 V c (ix2 (0 : Fin 1) f) :=
  congrFun (final0 V c) (ix2 r f)

end Cert.Val

end
-- ==== Proof.PayLayout.lean ====
/-
  The attention kernel's re-layings read at coordinates.

  The kernel loads a query block [1, 512, 128] and key and value blocks [1, 2048, 128] holding a pair of heads on
  128 lanes, drops the leading unit axis, and cuts the lanes into the first head (lanes 0..63) and the second
  (lanes 64..127). Entry (a, e) of a cut is entry (0, a, lo e), resp. (0, a, hi e), of the loaded block.
-/
import proofs.«130582_j40767829573965_2_alg».proof.Proof.Gen.KernelIdeal.Skeleton
import proofs.«130582_j40767829573965_2_alg».proof.Proof.Spec
import Idealize.ShloMosaic.Lib.ValueLayout

noncomputable section

namespace Cert.Pay

open Idealize.ShloMosaic Idealize.ShloMosaic.ValueIdx Cert.KernelIdeal

variable [Cert.KernelIdeal.Facts]

open Cert.Spec (lo hi)

/-- Lanes 0..63 of a [n, 128] value: entry (a, e) is the source at (a, lo e). -/
theorem sliceLo_apply {n : ℕ} (X : FVec Ideal ⟨2, ![n, 128]⟩ .bf16)
    (h : (⟨2, ![n, 128]⟩ : Shape).Slices ![0, 0] ⟨2, ![n, 64]⟩) (a : Fin n) (e : Fin 64) :
    extractStridedSlice ⟨2, ![n, 64]⟩ ![0, 0] X h (ix2 a e) = X (ix2 a (lo e)) :=
  slice2_axis1_apply 0 X h a e (lo e) (Nat.zero_add _).symm

/-- Lanes 64..127 of a [n, 128] value: entry (a, e) is the source at (a, hi e). -/
theorem sliceHi_apply {n : ℕ} (X : FVec Ideal ⟨2, ![n, 128]⟩ .bf16)
    (h : (⟨2, ![n, 128]⟩ : Shape).Slices ![0, 64] ⟨2, ![n, 64]⟩) (a : Fin n) (e : Fin 64) :
    extractStridedSlice ⟨2, ![n, 64]⟩ ![0, 64] X h (ix2 a e) = X (ix2 a (hi e)) :=
  slice2_axis1_apply 64 X h a e (hi e) rfl

/-- The query block without its unit axis. -/
theorem q2_apply (q : Vec Ideal S1x512x128 .bf16) (i : Fin 512) (c : Fin 128) :
    Gen.k1_pay2 (F := Ideal) q (ix2 i c) = q (ix3 (0 : Fin 1) i c) :=
  shapeCast_1ab_ab_apply q Gen.shapeCasts_S1x512x128_S512x128 i c

/-- The key block without its unit axis. -/
theorem k3_apply (k : Vec Ideal S1x2048x128 .bf16) (j : Fin 2048) (c : Fin 128) :
    Gen.k1_pay3 (F := Ideal) k (ix2 j c) = k (ix3 (0 : Fin 1) j c) :=
  shapeCast_1ab_ab_apply k Gen.shapeCasts_S1x2048x128_S2048x128 j c

/-- The value block without its unit axis. -/
theorem v4_apply (v : Vec Ideal S1x2048x128 .bf16) (j : Fin 2048) (c : Fin 128) :
    Gen.k1_pay4 (F := Ideal) v (ix2 j c) = v (ix3 (0 : Fin 1) j c) :=
  shapeCast_1ab_ab_apply v Gen.shapeCasts_S1x2048x128_S2048x128 j c

/-- The first head's queries, keys, values. -/
theorem qLo_apply (q : Vec Ideal S1x512x128 .bf16) (i : Fin 512) (e : Fin 64) :
    extractStridedSlice S512x64 ![0, 0] (Gen.k1_pay2 (F := Ideal) q) Gen.slices_S512x128_o0_0_S512x64 (ix2 i e)
      = q (ix3 (0 : Fin 1) i (lo e)) :=
  (sliceLo_apply _ _ i e).trans (q2_apply q i (lo e))

theorem kLo_apply (k : Vec Ideal S1x2048x128 .bf16) (j : Fin 2048) (e : Fin 64) :
    extractStridedSlice S2048x64 ![0, 0] (Gen.k1_pay3 (F := Ideal) k) Gen.slices_S2048x128_o0_0_S2048x64 (ix2 j e)
      = k (ix3 (0 : Fin 1) j (lo e)) :=
  (sliceLo_apply _ _ j e).trans (k3_apply k j (lo e))

theorem vLo_apply (v : Vec Ideal S1x2048x128 .bf16) (j : Fin 2048) (e : Fin 64) :
    extractStridedSlice S2048x64 ![0, 0] (Gen.k1_pay4 (F := Ideal) v) Gen.slices_S2048x128_o0_0_S2048x64 (ix2 j e)
      = v (ix3 (0 : Fin 1) j (lo e)) :=
  (sliceLo_apply _ _ j e).trans (v4_apply v j (lo e))

/-- The second head's queries, keys, values. -/
theorem qHi_apply (q : Vec Ideal S1x512x128 .bf16) (i : Fin 512) (e : Fin 64) :
    extractStridedSlice S512x64 ![0, 64] (Gen.k1_pay2 (F := Ideal) q) Gen.slices_S512x128_o0_64_S512x64 (ix2 i e)
      = q (ix3 (0 : Fin 1) i (hi e)) :=
  (sliceHi_apply _ _ i e).trans (q2_apply q i (hi e))

theorem kHi_apply (k : Vec Ideal S1x2048x128 .bf16) (j : Fin 2048) (e : Fin 64) :
    extractStridedSlice S2048x64 ![0, 64] (Gen.k1_pay3 (F := Ideal) k) Gen.slices_S2048x128_o0_64_S2048x64 (ix2 j e)
      = k (ix3 (0 : Fin 1) j (hi e)) :=
  (sliceHi_apply _ _ j e).trans (k3_apply k j (hi e))

theorem vHi_apply (v : Vec Ideal S1x2048x128 .bf16) (j : Fin 2048) (e : Fin 64) :
    Gen.k1_pay6 (F := Ideal) v (ix2 j e) = v (ix3 (0 : Fin 1) j (hi e)) :=
  (sliceHi_apply _ Gen.slices_S2048x128_o0_64_S2048x64 j e).trans (v4_apply v j (hi e))

end Cert.Pay

end
-- ==== Proof.LibDotRows.lean ====
/-
  Two matrix products read at an index over the extended reals, as plain finite sums, for any extents.

  * a matrix product of an [M, K] operand with a [K, N] operand into the all-zero accumulator, at (r, c), is
    ∑ k, l (r, k) · w (k, c);
  * a host contraction of the LAST axis of an [A, B, K] operand with the FIRST axis of a [K, N] operand, at
    (a, b, c), is ∑ k, l (a, b, k) · w (k, c).

  The dimension record of a printed program enters only through one-line coordinate facts (which coordinate of
  the result, or of the contraction position, each operand coordinate is): for a record with literal axis lists
  each is `by unfold DotDims.lhsIdx; rw [dif_neg (by decide), dif_pos (by decide)]; rfl` or
  `D.lhsIdx_val_of_single rfl j q`.
-/
import Idealize.ShloMosaic.PureOps.Ideal.Laws
import Idealize.ShloMosaic.Lib.ValueIdx

noncomputable section

namespace Cert.LibDotRows

open Idealize.ShloMosaic Idealize.ShloMosaic.ValueIdx

/-- [M, K] · [K, N] into the zero accumulator, at (r, c): the sum over the shared axis. -/
theorem matmul_zero_ix2 {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    (l : FVec Ideal ⟨2, ![M, K]⟩ φ₁) (w : FVec Ideal ⟨2, ![K, N]⟩ φ₂) (r : Fin M) (c : Fin N) :
    matmul D prec l w (constant ⟨2, ![M, N]⟩ .f32 0x00000000#32) (ix2 r c) = ∑ k : Fin K, l (ix2 r k) * w (ix2 k c) := by
  refine (Ideal.matmul_constant_zero_apply D prec l w (ix2 r c)).trans ?_
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-- The host's contraction [A, B, K] · [K, N] over the shared axis, at (a, b, c). -/
theorem dotGeneral_ix3 {A B K N : Nat} {φ₁ φ₂ : FTy}
    (D : DotDims ⟨3, ![A, B, K]⟩ ⟨2, ![K, N]⟩ ⟨3, ![A, B, N]⟩) (prec : Option ContractPrecision)
    (hr : D.contr.rank = 1) (hs : D.contr.size ⟨0, by omega⟩ = K)
    (hl0 : ∀ (j : (⟨3, ![A, B, N]⟩ : Shape).Idx) (q : D.contr.Idx), (D.lhsIdx j q (0 : Fin 3)).val = (j (0 : Fin 3)).val)
    (hl1 : ∀ (j : (⟨3, ![A, B, N]⟩ : Shape).Idx) (q : D.contr.Idx), (D.lhsIdx j q (1 : Fin 3)).val = (j (1 : Fin 3)).val)
    (hl2 : ∀ (j : (⟨3, ![A, B, N]⟩ : Shape).Idx) (q : D.contr.Idx), (D.lhsIdx j q (2 : Fin 3)).val = (q ⟨0, by omega⟩).val)
    (hr0 : ∀ (j : (⟨3, ![A, B, N]⟩ : Shape).Idx) (q : D.contr.Idx), (D.rhsIdx j q (0 : Fin 2)).val = (q ⟨0, by omega⟩).val)
    (hr1 : ∀ (j : (⟨3, ![A, B, N]⟩ : Shape).Idx) (q : D.contr.Idx), (D.rhsIdx j q (1 : Fin 2)).val = (j (2 : Fin 3)).val)
    (l : FVec Ideal ⟨3, ![A, B, K]⟩ φ₁) (w : FVec Ideal ⟨2, ![K, N]⟩ φ₂) (a : Fin A) (b : Fin B) (c : Fin N) :
    Host.dotGeneral D prec l w (ix3 a b c) = ∑ k : Fin K, l (ix3 a b k) * w (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 a b c) ((contrEquiv1 D K hr hs).symm k) = ix3 a b k := funext fun x => Fin.ext (by
    match x with
    | ⟨0, _⟩ => exact hl0 _ _
    | ⟨1, _⟩ => exact hl1 _ _
    | ⟨2, _⟩ => exact (hl2 _ _).trans hk)
  have er : D.rhsIdx (ix3 a b c) ((contrEquiv1 D K hr hs).symm k) = ix2 k c := funext fun x => Fin.ext (by
    match x with
    | ⟨0, _⟩ => exact (hr0 _ _).trans hk
    | ⟨1, _⟩ => exact hr1 _ _)
  rw [el, er]

end Cert.LibDotRows

end
-- ==== Proof.LibReduceRead.lean ====
/-
  One-axis reductions of a rank-2 value, read at coordinates, over the extended reals.

  A reduction of an `[a, b]` value along its lanes (axis 1) leaves a vector of length `a` whose element `i` is
  the sum (or the maximum) of row `i`; along its sublanes (axis 0) a vector of length `b` whose element `j` is the
  sum (or the maximum) of column `j`. The library states these over `Shape.Reduces.lift` (the result index with the
  reduced coordinate inserted); here the inserted index is written out as `ix2 i k` resp. `ix2 k j`, so that the
  terms of the sum are the operand at plain coordinates and can be rewritten one by one.
-/
import Idealize.ShloMosaic.PureOps.Ideal.Laws
import Idealize.ShloMosaic.Lib.ValueIdx

namespace Cert.LibReduceRead

open Idealize.ShloMosaic Idealize.ShloMosaic.ValueIdx

/-- Row `i`'s sum: the lane reduction of an `[a, b]` value at `i` is `∑ k, src (i, k)`. -/
theorem laneSum_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src ?_
  funext c; apply Fin.ext
  match c with
  | ⟨0, _⟩ => rfl
  | ⟨1, _⟩ => rfl

/-- Column `j`'s sum: the sublane reduction of an `[a, b]` value at `j` is `∑ k, src (k, j)`. -/
theorem sublaneSum_apply {a b : ℕ} (src : FVec Ideal ⟨2, ![a, b]⟩ .f32) (acc : BitVec FTy.f32.bits)
    (h : (⟨2, ![a, b]⟩ : Shape).Reduces [0] ⟨1, ![b]⟩) (hφ : FKind.Formats .f32)
    (hacc : acc = FKind.add.neutral .f32 hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src ?_
  funext c; apply Fin.ext
  match c with
  | ⟨0, _⟩ => rfl
  | ⟨1, _⟩ => rfl

/-- Row `i`'s maximum: the lane max-reduction at `i` is the fold of `max` over row `i`, from the accumulator's value. -/
theorem laneMax_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (FloatOps.ofBits (F := Ideal) .f32 acc) (fun k => src (ix2 i k)) := by
  refine (Ideal.multiReduction_maximumf_single src acc h hφ hacc (ix1 i)).trans ?_
  refine congrArg (fun f => (Finset.univ : Finset (Fin b)).fold max (FloatOps.ofBits (F := Ideal) .f32 acc) f) ?_
  funext k
  refine congrArg src ?_
  funext c; apply Fin.ext
  match c with
  | ⟨0, _⟩ => rfl
  | ⟨1, _⟩ => rfl

/-- Column `j`'s maximum: the sublane max-reduction at `j` is the fold of `max` over column `j`. -/
theorem sublaneMax_apply {a b : ℕ} (src : FVec Ideal ⟨2, ![a, b]⟩ .f32) (acc : BitVec FTy.f32.bits)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (FloatOps.ofBits (F := Ideal) .f32 acc) (fun k => src (ix2 k j)) := by
  refine (Ideal.multiReduction_maximumf_single src acc h hφ hacc (ix1 j)).trans ?_
  refine congrArg (fun f => (Finset.univ : Finset (Fin a)).fold max (FloatOps.ofBits (F := Ideal) .f32 acc) f) ?_
  funext k
  refine congrArg src ?_
  funext c; apply Fin.ext
  match c with
  | ⟨0, _⟩ => rfl
  | ⟨1, _⟩ => rfl

end Cert.LibReduceRead
-- ==== Proof.LibKeepdims.lean ====
/-
  Column forms of the keepdims layout operations, read at an index given by coordinates.

  A reduction over the lanes of a rank-2 value leaves a vector of length `a`; a kernel then re-lays it as a column
  `[a, 1]` (a shape cast) and spreads the column over `b` lanes (a broadcast). Element `(i, j)` of the spread
  column is element `i` of the vector, whatever `j` is. The row forms (`[a] → [1, a]`, `[1, b] → [a, b]`) are in
  the library (Lib/ValueLayout.lean); these are their transposed counterparts, in the same style: the parent lemma of
  Lib/Pipeline/Value.lean with both indices written `ixN …`.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- A vector re-laid as a column: element `(i, u)` of the `[a, 1]` column is element `i` of the vector (the only
    value of the unit coordinate `u` is `0`, so the two row-major positions agree). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column re-laid as a vector: element `i` of the vector is element `(i, 0)` of the `[a, 1]` column. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- ONE COLUMN BROADCAST over many lanes: element `(i, j)` of the `[a, b]` result is element `(i, 0)` of the column. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.PaySoft.lean ====
/-
  The attention kernel's arithmetic after the loads, read at coordinates.

  From a product matrix m : [512, 2048] the kernel forms the scores m * scale, subtracts from each row its maximum
  (taken from minus infinity), exponentiates, divides each row by its sum, and multiplies the resulting [512, 2048]
  matrix of weights by a value matrix [2048, 64]. Entry (i, d) of the result is the attention entry of row i of
  the scores against column d of the values.
-/
import proofs.«130582_j40767829573965_2_alg».proof.Proof.Gen.KernelIdeal.Skeleton
import proofs.«130582_j40767829573965_2_alg».proof.Proof.Spec
import proofs.«130582_j40767829573965_2_alg».proof.Proof.LibMatmulNT
import proofs.«130582_j40767829573965_2_alg».proof.Proof.LibDotRows
import proofs.«130582_j40767829573965_2_alg».proof.Proof.LibReduceRead
import proofs.«130582_j40767829573965_2_alg».proof.Proof.LibKeepdims
import Idealize.ShloMosaic.Lib.ValueLayout

noncomputable section

namespace Cert.Pay

open Idealize.ShloMosaic Idealize.ShloMosaic.ValueIdx Cert.KernelIdeal

variable [Cert.KernelIdeal.Facts]

/-- The scores of a block of query rows against a block of key rows: the products contracted over the 64 features
    of a head, times the scale. -/
def scores (qq : FVec Ideal S512x64 .bf16) (kk : FVec Ideal S2048x64 .bf16) : FVec Ideal S512x2048 .f32 :=
  mulf (matmul dot_S512x64_S2048x64_S512x2048_1_1_0_0_n_n none qq kk (constant (F := Ideal) S512x2048 .f32 0x00000000#32))
    (broadcast S512x2048 (Scalar.ofBits (F := Ideal) .f32 0x3D000000#32))

/-- A score matrix with each row's maximum (from minus infinity) subtracted. -/
def centered (s : FVec Ideal S512x2048 .f32) : FVec Ideal S512x2048 .f32 :=
  subf s (broadcastTo S512x2048 (shapeCast S512x1
    (multiReduction .maximumf [1] S512 s 0xFF800000#32 Gen.reduces_S512x2048_S512 (.inl rfl) rfl)
    Gen.shapeCasts_S512_S512x1) Gen.broadcasts_S512x1_S512x2048)

/-- Entry (i, j) of the scores. -/
theorem scores_apply (qq : FVec Ideal S512x64 .bf16) (kk : FVec Ideal S2048x64 .bf16) (i : Fin 512) (j : Fin 2048) :
    scores qq kk (ix2 i j) = (∑ e : Fin 64, qq (ix2 i e) * kk (ix2 j e)) * Cert.Spec.scale := by
  unfold scores
  refine (mulf_apply _ _ _).trans ?_
  refine congrArg₂ (· * ·) ?_ rfl
  exact Cert.LibMatmulNT.matmulNT_zero_apply dot_S512x64_S2048x64_S512x2048_1_1_0_0_n_n rfl rfl
    (fun i q => by unfold DotDims.lhsIdx; rw [dif_neg (by decide), dif_pos (by decide)]; rfl)
    (fun i q => dot_S512x64_S2048x64_S512x2048_1_1_0_0_n_n.lhsIdx_val_of_single rfl i q)
    (fun i q => by unfold DotDims.rhsIdx; rw [dif_neg (by decide), dif_pos (by decide)]; rfl)
    (fun i q => dot_S512x64_S2048x64_S512x2048_1_1_0_0_n_n.rhsIdx_val_of_single rfl i q)
    none qq kk i j

/-- Entry (i, j) of the centered scores: the score minus its row's maximum. -/
theorem centered_apply (s : FVec Ideal S512x2048 .f32) (i : Fin 512) (j : Fin 2048) :
    centered s (ix2 i j) = s (ix2 i j) - Cert.Spec.rowMax (fun k => s (ix2 i k)) := by
  unfold centered
  refine (subf_apply _ _ _).trans ?_
  refine congrArg (fun m => s (ix2 i j) - m) ?_
  refine (Cert.LibKeepdims.broadcastTo_a1_ab_apply _ _ i j).trans ?_
  refine (Cert.LibKeepdims.shapeCast_a_a1_apply _ _ i (0 : Fin 1)).trans ?_
  exact Cert.LibReduceRead.laneMax_apply s _ _ _ _ i

/-- The weights-times-values chain on an already centered matrix c: entry (0, i, d) is the sum over the key rows j
    of (exp (c (i, j)) divided by row i's sum of exponentials) times the value (j, d). -/
theorem softmaxMatmul_apply (c : FVec Ideal S512x2048 .f32) (vv : FVec Ideal S2048x64 .bf16) (i : Fin 512) (d : Fin 64) :
    Gen.k1_pay1 (F := Ideal) vv c (ix3 (0 : Fin 1) i d)
      = ∑ j : Fin 2048, Ideal.div (Ideal.exp (c (ix2 i j))) (∑ k : Fin 2048, Ideal.exp (c (ix2 i k))) * vv (ix2 j d) := by
  unfold Gen.k1_pay1
  refine (shapeCast_ab_1ab_apply _ _ (0 : Fin 1) i d).trans ?_
  refine (Cert.LibDotRows.matmul_zero_ix2 dot_S512x2048_S2048x64_S512x64_1_0_0_1_n_n none rfl rfl
    (fun i q => by unfold DotDims.lhsIdx; rw [dif_neg (by decide), dif_pos (by decide)]; rfl)
    (fun i q => dot_S512x2048_S2048x64_S512x64_1_0_0_1_n_n.lhsIdx_val_of_single rfl i q)
    (fun i q => dot_S512x2048_S2048x64_S512x64_1_0_0_1_n_n.rhsIdx_val_of_single rfl i q)
    (fun i q => by unfold DotDims.rhsIdx; rw [dif_neg (by decide), dif_pos (by decide)]; rfl)
    _ vv i d).trans ?_
  refine Finset.sum_congr rfl fun j _ => ?_
  refine congrArg (· * vv (ix2 j d)) ?_
  refine (truncf_apply (ψ := .bf16) _ Gen.bitsLt_bf16_f32 (ix2 i j)).trans ?_
  refine (divf_apply _ _ _).trans ?_
  refine congrArg (Ideal.div (Ideal.exp (c (ix2 i j)))) ?_
  refine (Cert.LibKeepdims.broadcastTo_a1_ab_apply _ _ i j).trans ?_
  refine (Cert.LibKeepdims.shapeCast_a_a1_apply _ _ i (0 : Fin 1)).trans ?_
  exact Cert.LibReduceRead.laneSum_apply (exp c) _ _ _ _ i

/-- The whole chain on a score matrix S whose row i is s, against values whose column d is w: the attention entry
    of s and w. -/
theorem attend_of_rows (S : FVec Ideal S512x2048 .f32) (vv : FVec Ideal S2048x64 .bf16) (s w : Fin 2048 → EReal)
    (i : Fin 512) (d : Fin 64) (hS : ∀ j, S (ix2 i j) = s j) (hv : ∀ j, vv (ix2 j d) = w j) :
    Gen.k1_pay1 (F := Ideal) vv (centered S) (ix3 (0 : Fin 1) i d) = Cert.Spec.attend s w := by
  have hrow : (fun k => S (ix2 i k)) = s := funext hS
  have hc : ∀ j, centered S (ix2 i j) = s j - Cert.Spec.rowMax s := fun j => by
    rw [centered_apply, hrow, hS]
  refine (softmaxMatmul_apply (centered S) vv i d).trans ?_
  unfold Cert.Spec.attend
  refine Finset.sum_congr rfl fun j _ => ?_
  rw [hv j, hc j]
  refine congrArg (fun z => Ideal.div (Ideal.exp (s j - Cert.Spec.rowMax s)) z * w j) ?_
  exact Finset.sum_congr rfl fun k _ => by rw [hc k]

end Cert.Pay

end
-- ==== Proof.PayAttn.lean ====
/-
  The attention kernel's two stored values read at an index, over the extended reals.

  The kernel handles a pair of heads packed on 128 lanes. For the first head (lanes 0..63) and for the second
  (lanes 64..127) it stores, at (0, i, d), the attention entry of query row i's scores against the 2048 key rows,
  with value feature d of that head: the score of key row j is the contraction of the head's 64 query and key
  features times the scale.
-/
import proofs.«130582_j40767829573965_2_alg».proof.Proof.PayLayout
import proofs.«130582_j40767829573965_2_alg».proof.Proof.PaySoft

noncomputable section

namespace Cert.Pay

open Idealize.ShloMosaic Idealize.ShloMosaic.ValueIdx Cert.KernelIdeal

variable [Cert.KernelIdeal.Facts]

open Cert.Spec (lo hi)

/-- The first head's stored value is the weights-times-values chain on its centered scores. -/
theorem pay5_eq (q : Vec Ideal S1x512x128 .bf16) (k v : Vec Ideal S1x2048x128 .bf16) :
    Gen.k1_pay5 (F := Ideal) q k v
      = Gen.k1_pay1 (F := Ideal)
          (extractStridedSlice S2048x64 ![0, 0] (Gen.k1_pay4 (F := Ideal) v) Gen.slices_S2048x128_o0_0_S2048x64)
          (centered (scores
            (extractStridedSlice S512x64 ![0, 0] (Gen.k1_pay2 (F := Ideal) q) Gen.slices_S512x128_o0_0_S512x64)
            (extractStridedSlice S2048x64 ![0, 0] (Gen.k1_pay3 (F := Ideal) k) Gen.slices_S2048x128_o0_0_S2048x64))) := rfl

/-- The second head's centered scores. -/
theorem pay7_eq (q : Vec Ideal S1x512x128 .bf16) (k : Vec Ideal S1x2048x128 .bf16) :
    Gen.k1_pay7 (F := Ideal) q k
      = centered (scores
          (extractStridedSlice S512x64 ![0, 64] (Gen.k1_pay2 (F := Ideal) q) Gen.slices_S512x128_o0_64_S512x64)
          (extractStridedSlice S2048x64 ![0, 64] (Gen.k1_pay3 (F := Ideal) k) Gen.slices_S2048x128_o0_64_S2048x64)) := rfl

/-- The first head: entry (0, i, d) of the stored value. -/
theorem attn_lo_apply (q : Vec Ideal S1x512x128 .bf16) (k v : Vec Ideal S1x2048x128 .bf16) (i : Fin 512) (d : Fin 64) :
    Gen.k1_pay5 (F := Ideal) q k v (ix3 (0 : Fin 1) i d)
      = Cert.Spec.attend
          (fun j => (∑ e : Fin 64, q (ix3 (0 : Fin 1) i (lo e)) * k (ix3 (0 : Fin 1) j (lo e))) * Cert.Spec.scale)
          (fun j => v (ix3 (0 : Fin 1) j (lo d))) := by
  rw [pay5_eq]
  refine attend_of_rows _ _ _ _ i d (fun j => ?_) (fun j => vLo_apply v j d)
  refine (scores_apply _ _ i j).trans ?_
  refine congrArg (· * Cert.Spec.scale) ?_
  exact Finset.sum_congr rfl fun e _ => congrArg₂ (· * ·) (qLo_apply q i e) (kLo_apply k j e)

/-- The second head: entry (0, i, d) of the stored value. -/
theorem attn_hi_apply (q : Vec Ideal S1x512x128 .bf16) (k v : Vec Ideal S1x2048x128 .bf16) (i : Fin 512) (d : Fin 64) :
    Gen.k1_pay1 (F := Ideal) (Gen.k1_pay6 (F := Ideal) v) (Gen.k1_pay7 (F := Ideal) q k) (ix3 (0 : Fin 1) i d)
      = Cert.Spec.attend
          (fun j => (∑ e : Fin 64, q (ix3 (0 : Fin 1) i (hi e)) * k (ix3 (0 : Fin 1) j (hi e))) * Cert.Spec.scale)
          (fun j => v (ix3 (0 : Fin 1) j (hi d))) := by
  rw [pay7_eq]
  refine attend_of_rows _ _ _ _ i d (fun j => ?_) (fun j => vHi_apply v j d)
  refine (scores_apply _ _ i j).trans ?_
  refine congrArg (· * Cert.Spec.scale) ?_
  exact Finset.sum_congr rfl fun e _ => congrArg₂ (· * ·) (qHi_apply q i e) (kHi_apply k j e)

end Cert.Pay

end
-- ==== Proof.ValR1.lean ====
/-
  The second region's output array after the run, as one function of the array the region reads.

  The grid is [2, 8, 4]: a batch b, a pair of heads hp and a block of 512 query rows qi. The point writes back the
  [1, 512, 128] block of the result at block index (b, qi, hp): lanes 0..63 hold head 2 hp, lanes 64..127 head
  2 hp + 1. It reads three blocks of the one projection array [2, 2048, 3072]: the queries at block index
  (b, qi, hp), all 2048 key rows at lane block 8 + hp and all value rows at lane block 16 + hp. Every written block is
  the block of ONE function of the projection array — entry (b, n, 64 h + d) is the attention entry of head h's
  scores of row n against value feature d of head h — and the 64 blocks cover the array.
-/
import proofs.«130582_j40767829573965_2_alg».proof.Proof.FrameR1
import proofs.«130582_j40767829573965_2_alg».proof.Proof.PayAttn
import proofs.«130582_j40767829573965_2_alg».proof.Proof.Spec
import Idealize.ShloMosaic.Lib.Pipeline.Value

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

open Cert.Spec (lo hi qcol kcol vcol)

theorem hz3 : (![0, 0, 0] : Fin 3 → Nat) = fun _ => 0 := funext fun a => by fin_cases a <;> rfl

/-- The projection array as the second region finds it, at its literal shape. -/
abbrev arr5 (c : Dev nD) : S2x2048x3072.Idx → EReal := V c main_v5

/-- The attention entry of batch b, query row n, head h, value feature d, from the projection array. -/
def attnAt (c : Dev nD) (b : Fin 2) (n : Fin 2048) (h : Fin 16) (d : Fin 64) : EReal :=
  Cert.Spec.attend
    (fun j => (∑ e : Fin 64, arr5 V c (ix3 b n (qcol h e)) * arr5 V c (ix3 b j (kcol h e))) * Cert.Spec.scale)
    (fun j => arr5 V c (ix3 b j (vcol h d)))

/-- The result array: entry (b, n, c) is head c / 64, feature c % 64. -/
def G1 (c : Dev nD) : S2x2048x1024.Idx → Elt Ideal .f32 := fun i =>
  attnAt V c (i 0) (i 1) ⟨(i 2).val / 64, by have : (i 2).val < 1024 := (i 2).isLt; omega⟩
    ⟨(i 2).val % 64, Nat.mod_lt _ (by decide)⟩

/-- The result array at an index whose coordinates are known. -/
theorem G1_apply (c : Dev nD) (i : S2x2048x1024.Idx) (b : Fin 2) (n : Fin 2048) (h : Fin 16) (d : Fin 64)
    (h0 : (i 0).val = b.val) (h1 : (i 1).val = n.val) (h2 : (i 2).val = h.val * 64 + d.val) :
    G1 V c i = attnAt V c b n h d := by
  obtain ⟨b', n', c', rfl⟩ : ∃ (b' : Fin 2) (n' : Fin 2048) (c' : Fin 1024), i = ix3 b' n' c' := ⟨i 0, i 1, i 2, eq_ix3 i⟩
  obtain rfl : b' = b := Fin.ext h0
  obtain rfl : n' = n := Fin.ext h1
  have hd := d.isLt
  have hc : c'.val = h.val * 64 + d.val := h2
  show attnAt V c b' n' ⟨c'.val / 64, _⟩ ⟨c'.val % 64, _⟩ = _
  congr 1
  · exact Fin.ext (by show c'.val / 64 = h.val; omega)
  · exact Fin.ext (by show c'.val % 64 = d.val; omega)

/-- The block indices of the four windows at every grid point, relative to the output's: the queries sit at the output's
    block index, the keys and the values span all rows at lane blocks 8 and 16 further on. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = 8 + win1_3.index t (2 : Fin 3)
    ∧ win1_2.index t (0 : Fin 3) = win1_3.index t (0 : Fin 3) ∧ win1_2.index t (1 : Fin 3) = 0
    ∧ win1_2.index t (2 : Fin 3) = 16 + win1_3.index t (2 : Fin 3)
    ∧ win1_3.index t (0 : Fin 3) < 2 ∧ win1_3.index t (1 : Fin 3) < 4 ∧ win1_3.index t (2 : Fin 3) < 8 :=
  (by decide +kernel : ∀ t : Fin grid1.N, _)

/-- Every block index of the output is some point's. -/
theorem idx_onto1 : ∀ (q0 : Fin 2) (q1 : Fin 4) (q2 : Fin 8), ∃ t : Fin cfg1.N, win1_3.index t = ![q0.val, q1.val, q2.val] :=
  (by decide +kernel : ∀ (q0 : Fin 2) (q1 : Fin 4) (q2 : Fin 8), ∃ t : Fin grid1.N, win1_3.index t = ![q0.val, q1.val, q2.val])

/-- The query block at point t read in the projection array. -/
theorem iblk1_0_apply (c : Dev nD) (t : Fin cfg1.N) (p : Fin 512) (l : Fin 128) (b : Fin 2) (n : Fin 2048) (f : Fin 3072)
    (hb : b.val = win1_3.index t (0 : Fin 3)) (hn : n.val = win1_3.index t (1 : Fin 3) * 512 + p.val)
    (hf : f.val = win1_3.index t (2 : Fin 3) * 128 + l.val) :
    (iblk1 V c 0 t : Vec Ideal S1x512x128 .bf16) (ix3 (0 : Fin 1) p l) = arr5 V c (ix3 b n f) := by
  obtain ⟨e0, e1, e2, -⟩ := idx_facts1 t
  unfold iblk1
  rw [View.read_apply]
  show V c main_v5 _ = V c main_v5 _
  congr 1
  funext a
  apply Fin.ext
  match a with
  | ⟨0, _⟩ => show win1_0.index t (0 : Fin 3) * 1 + 1 * 0 = b.val; omega
  | ⟨1, _⟩ => show win1_0.index t (1 : Fin 3) * 512 + 1 * p.val = n.val; omega
  | ⟨2, _⟩ => show win1_0.index t (2 : Fin 3) * 128 + 1 * l.val = f.val; omega

/-- The key block at point t read in the projection array. -/
theorem iblk1_1_apply (c : Dev nD) (t : Fin cfg1.N) (j : Fin 2048) (l : Fin 128) (b : Fin 2) (f : Fin 3072)
    (hb : b.val = win1_3.index t (0 : Fin 3)) (hf : f.val = (8 + win1_3.index t (2 : Fin 3)) * 128 + l.val) :
    (iblk1 V c 1 t : Vec Ideal S1x2048x128 .bf16) (ix3 (0 : Fin 1) j l) = arr5 V c (ix3 b j f) := by
  obtain ⟨-, -, -, e0, e1, e2, -⟩ := idx_facts1 t
  unfold iblk1
  rw [View.read_apply]
  show V c main_v5 _ = V c main_v5 _
  congr 1
  funext a
  apply Fin.ext
  match a with
  | ⟨0, _⟩ => show win1_1.index t (0 : Fin 3) * 1 + 1 * 0 = b.val; omega
  | ⟨1, _⟩ => show win1_1.index t (1 : Fin 3) * 2048 + 1 * j.val = j.val; omega
  | ⟨2, _⟩ => show win1_1.index t (2 : Fin 3) * 128 + 1 * l.val = f.val; omega

/-- The value block at point t read in the projection array. -/
theorem iblk1_2_apply (c : Dev nD) (t : Fin cfg1.N) (j : Fin 2048) (l : Fin 128) (b : Fin 2) (f : Fin 3072)
    (hb : b.val = win1_3.index t (0 : Fin 3)) (hf : f.val = (16 + win1_3.index t (2 : Fin 3)) * 128 + l.val) :
    (iblk1 V c 2 t : Vec Ideal S1x2048x128 .bf16) (ix3 (0 : Fin 1) j l) = arr5 V c (ix3 b j f) := by
  obtain ⟨-, -, -, -, -, -, e0, e1, e2, -⟩ := idx_facts1 t
  unfold iblk1
  rw [View.read_apply]
  show V c main_v5 _ = V c main_v5 _
  congr 1
  funext a
  apply Fin.ext
  match a with
  | ⟨0, _⟩ => show win1_2.index t (0 : Fin 3) * 1 + 1 * 0 = b.val; omega
  | ⟨1, _⟩ => show win1_2.index t (1 : Fin 3) * 2048 + 1 * j.val = j.val; omega
  | ⟨2, _⟩ => show win1_2.index t (2 : Fin 3) * 128 + 1 * l.val = f.val; omega

/-- The first store at point t, at (0, p, d): the attention entry of the even head of the pair. -/
theorem piece_lo (c : Dev nD) (t : Fin cfg1.N) (p : Fin 512) (d : Fin 64) (b : Fin 2) (n : Fin 2048) (h : Fin 16)
    (hb : b.val = win1_3.index t (0 : Fin 3)) (hn : n.val = win1_3.index t (1 : Fin 3) * 512 + p.val)
    (hh : h.val = 2 * win1_3.index t (2 : Fin 3)) :
    k1_pay5 (F := Ideal) (iblk1 V c 0 t) (iblk1 V c 1 t) (iblk1 V c 2 t) (ix3 (0 : Fin 1) p d) = attnAt V c b n h d := by
  refine (Cert.Pay.attn_lo_apply _ _ _ p d).trans ?_
  unfold attnAt
  refine congrArg₂ Cert.Spec.attend (funext fun j => ?_) (funext fun j => ?_)
  · refine congrArg (· * Cert.Spec.scale) (Finset.sum_congr rfl fun e _ => congrArg₂ (· * ·) ?_ ?_)
    · exact iblk1_0_apply V c t p (lo e) b n (qcol h e) hb hn
        (by show h.val * 64 + e.val = win1_3.index t (2 : Fin 3) * 128 + e.val; omega)
    · exact iblk1_1_apply V c t j (lo e) b (kcol h e) hb
        (by show 1024 + (h.val * 64 + e.val) = (8 + win1_3.index t (2 : Fin 3)) * 128 + e.val; omega)
  · exact iblk1_2_apply V c t j (lo d) b (vcol h d) hb
      (by show 2048 + (h.val * 64 + d.val) = (16 + win1_3.index t (2 : Fin 3)) * 128 + d.val; omega)

/-- The second store at point t, at (0, p, d): the attention entry of the odd head of the pair. -/
theorem piece_hi (c : Dev nD) (t : Fin cfg1.N) (p : Fin 512) (d : Fin 64) (b : Fin 2) (n : Fin 2048) (h : Fin 16)
    (hb : b.val = win1_3.index t (0 : Fin 3)) (hn : n.val = win1_3.index t (1 : Fin 3) * 512 + p.val)
    (hh : h.val = 2 * win1_3.index t (2 : Fin 3) + 1) :
    k1_pay1 (F := Ideal) (k1_pay6 (F := Ideal) (iblk1 V c 2 t)) (k1_pay7 (F := Ideal) (iblk1 V c 0 t) (iblk1 V c 1 t))
      (ix3 (0 : Fin 1) p d) = attnAt V c b n h d := by
  refine (Cert.Pay.attn_hi_apply _ _ _ p d).trans ?_
  unfold attnAt
  refine congrArg₂ Cert.Spec.attend (funext fun j => ?_) (funext fun j => ?_)
  · refine congrArg (· * Cert.Spec.scale) (Finset.sum_congr rfl fun e _ => congrArg₂ (· * ·) ?_ ?_)
    · exact iblk1_0_apply V c t p (hi e) b n (qcol h e) hb hn
        (by show h.val * 64 + e.val = win1_3.index t (2 : Fin 3) * 128 + (64 + e.val); omega)
    · exact iblk1_1_apply V c t j (hi e) b (kcol h e) hb
        (by show 1024 + (h.val * 64 + e.val) = (8 + win1_3.index t (2 : Fin 3)) * 128 + (64 + e.val); omega)
  · exact iblk1_2_apply V c t j (hi d) b (vcol h d) hb
      (by show 2048 + (h.val * 64 + d.val) = (16 + win1_3.index t (2 : Fin 3)) * 128 + (64 + d.val); omega)

/-- What point t writes back is block t of the result array. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  simp only [View.ld_unit_zero (S := S1x512x128) hz3, View.ld_unit_zero (S := S1x2048x128) hz3]
  obtain ⟨-, -, -, -, -, -, -, -, -, l0, l1, l2⟩ := idx_facts1 t
  funext j
  show View.canon _ j = G1 V c (((cfg1.win 3).blk t).view.emb j)
  refine View.canon_apply_of_pieces (fun y => G1 V c (((cfg1.win 3).blk t).view.emb y)) _ ?_ j (cover1_3 _ _ j)
  intro pc hpc x
  rcases List.mem_cons.mp hpc with rfl | hpc
  · obtain ⟨u, p, d, rfl⟩ : ∃ (u : Fin 1) (p : Fin 512) (d : Fin 64), x = ix3 u p d := ⟨x 0, x 1, x 2, eq_ix3 x⟩
    obtain rfl : u = 0 := Subsingleton.elim _ _
    refine (piece_hi V c t p d ⟨win1_3.index t (0 : Fin 3), l0⟩ ⟨win1_3.index t (1 : Fin 3) * 512 + p.val, by have := p.isLt; omega⟩
      ⟨2 * win1_3.index t (2 : Fin 3) + 1, by omega⟩ rfl rfl rfl).trans (G1_apply V c _ _ _ _ _ ?_ ?_ ?_).symm
    · show win1_3.index t (0 : Fin 3) * 1 + 1 * (0 + 1 * 0) = win1_3.index t (0 : Fin 3); omega
    · show win1_3.index t (1 : Fin 3) * 512 + 1 * (0 + 1 * p.val) = win1_3.index t (1 : Fin 3) * 512 + p.val; omega
    · show win1_3.index t (2 : Fin 3) * 128 + 1 * (64 + 1 * d.val) = (2 * win1_3.index t (2 : Fin 3) + 1) * 64 + d.val; omega
  · obtain rfl := List.mem_singleton.mp hpc
    obtain ⟨u, p, d, rfl⟩ : ∃ (u : Fin 1) (p : Fin 512) (d : Fin 64), x = ix3 u p d := ⟨x 0, x 1, x 2, eq_ix3 x⟩
    obtain rfl : u = 0 := Subsingleton.elim _ _
    refine (piece_lo V c t p d ⟨win1_3.index t (0 : Fin 3), l0⟩ ⟨win1_3.index t (1 : Fin 3) * 512 + p.val, by have := p.isLt; omega⟩
      ⟨2 * win1_3.index t (2 : Fin 3), by omega⟩ rfl rfl rfl).trans (G1_apply V c _ _ _ _ _ ?_ ?_ ?_).symm
    · show win1_3.index t (0 : Fin 3) * 1 + 1 * (0 + 1 * 0) = win1_3.index t (0 : Fin 3); omega
    · show win1_3.index t (1 : Fin 3) * 512 + 1 * (0 + 1 * p.val) = win1_3.index t (1 : Fin 3) * 512 + p.val; omega
    · show win1_3.index t (2 : Fin 3) * 128 + 1 * (0 + 1 * d.val) = (2 * win1_3.index t (2 : Fin 3)) * 64 + d.val; omega

/-- An index of the array is in point t's block iff each coordinate is in the block's range on its axis. -/
theorem mem_blk1 (t : Fin cfg1.N) (i : S2x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v6).slice (win1_3.rect t)).set ↔ _
  rw [View.set_slice_whole, Rect.mem_set_unit]
  exact Iff.rfl

/-- Entry (b, n, c) of the array is in the block of the point whose output block index is (b, n / 512, c / 128). -/
theorem cover1 (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto1 ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- The result array after the run. -/
theorem final1 (c : Dev nD) : (dat1 (F := Ideal) V c).arrAt 3 cfg1.N = G1 V c :=
  (dat1 (F := Ideal) V c).arrAt_eq_of_cover 3 (G1 V c) (fun t _ => flushed1_eq V c t) cover1

/-- Its entry for batch b, row n, head h, feature d. -/
theorem attn_array (c : Dev nD) (b : Fin 2) (n : Fin 2048) (h : Fin 16) (d : Fin 64) :
    (dat1 (F := Ideal) V c).arrAt 3 cfg1.N
        (ix3 b n (⟨h.val * 64 + d.val, by have := h.isLt; have := d.isLt; omega⟩ : Fin 1024))
      = Cert.Spec.attend
          (fun j => (∑ e : Fin 64, arr5 V c (ix3 b n (qcol h e)) * arr5 V c (ix3 b j (kcol h e))) * Cert.Spec.scale)
          (fun j => arr5 V c (ix3 b j (vcol h d))) :=
  (congrFun (final1 V c) _).trans (G1_apply V c _ b n h d rfl rfl rfl)

end Cert.Val

end
-- ==== Proof.KernelValue.lean ====
/-
  What the kernel program leaves in its result array, as a function of its three arguments.

  The first region leaves the projection: its output array at (r, f) is the sum over e of the flattened activation at
  (r, e) times the weight at (f, e), plus the bias at f. Re-laid as two batches it is the specification's projection.
  The second region reads that array three times — queries, keys, values of a pair of heads — and leaves at
  (b, n, 64 h + d) the attention entry of head h, which is the specification's array.
-/
import proofs.«130582_j40767829573965_2_alg».proof.Proof.HostStages
import proofs.«130582_j40767829573965_2_alg».proof.Proof.ValR0
import proofs.«130582_j40767829573965_2_alg».proof.Proof.ValR1

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The array the second region reads is the specification's projection of the arguments. -/
theorem v5_proj (c : Dev nD) (b : Fin 2) (n : Fin 2048) (f : Fin 3072) :
    Cert.Val.arr5 (V3 m ρ) c (ix3 b n f)
      = Cert.Spec.proj (m ((c : Thread nD τ).loc main_arg0)) (m ((c : Thread nD τ).loc main_arg1)) (m ((c : Thread nD τ).loc main_arg2)) b n f := by
  show (V3 m ρ c main_v5 : S2x2048x3072.Idx → EReal) (ix3 b n f) = _
  rw [V3_v5_apply]
  have h4 : (W2 m ρ c (Proc.devRef .tc main_v4) : S4096x3072.Idx → EReal) = (dat0 (F := Ideal) (V1 m ρ) c).arrAt 3 cfg0.N := W2_arr m ρ c 3
  rw [h4, Cert.Val.proj_array (V1 m ρ) c _ f]
  unfold Cert.Spec.proj
  refine congrArg₂ (· + ·) (Finset.sum_congr rfl fun e _ => ?_) (V1_v3_apply m ρ c f)
  exact congrArg₂ (· * ·) (V1_v1_apply m ρ c b n e) (V1_v2_apply m ρ c (ix2 f e))

/-- The result array after the run is the specification's array of the arguments. -/
theorem result_eq (c : Dev nD) :
    (W4 m ρ c (Proc.devRef .tc main_v6) : S2x2048x1024.Idx → EReal)
      = Cert.Spec.G (m ((c : Thread nD τ).loc main_arg0)) (m ((c : Thread nD τ).loc main_arg1)) (m ((c : Thread nD τ).loc main_arg2)) := by
  funext i
  obtain ⟨b, n, cc, rfl⟩ : ∃ (b : Fin 2) (n : Fin 2048) (cc : Fin 1024), i = ix3 b n cc := ⟨i 0, i 1, i 2, eq_ix3 i⟩
  obtain ⟨h, d, rfl⟩ : ∃ (h : Fin 16) (d : Fin 64), cc = (⟨h.val * 64 + d.val, by have := h.isLt; have := d.isLt; omega⟩ : Fin 1024) :=
    ⟨⟨cc.val / 64, by have := cc.isLt; omega⟩, ⟨cc.val % 64, Nat.mod_lt _ (by decide)⟩, Fin.ext (by show cc.val = cc.val / 64 * 64 + cc.val % 64; omega)⟩
  rw [W4_v6, Cert.Val.attn_array (V3 m ρ) c b n h d, Cert.Spec.G_head]
  unfold Cert.Spec.head Cert.Spec.score
  refine congrArg₂ Cert.Spec.attend (funext fun j => ?_) (funext fun j => v5_proj m ρ c b j _)
  refine congrArg (· * Cert.Spec.scale) (Finset.sum_congr rfl fun e _ => ?_)
  exact congrArg₂ (· * ·) (v5_proj m ρ c b n _) (v5_proj m ρ c b j _)

/-- The run with its result named: the result array ends at the specification's array, the arguments as launched. -/
theorem value : θ_run (defs (F := Ideal)) (onTc (τ := τ) (main (F := Ideal))) ⟨m, fun _ => 0, ρ⟩ (fun r => ∀ c : Dev nD,
      r.2.mem ((c.tc : Thread nD τ).loc main_v6)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v6 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.RefProj.lean ====
/-
  The reference program's projection: the contraction of the activation with the weight along the embedding
  axis, plus the bias row broadcast over batch and row, read at an index (b, n, f). It is the specification's
  projection entry: the sum over e of x(b, n, e) * w(f, e), plus bias(f).
-/
import proofs.«130582_j40767829573965_2_alg».proof.Proof.Spec
import proofs.«130582_j40767829573965_2_alg».proof.Proof.Gen.ReferenceIdeal.Read

namespace Cert.RefSide

open Cert.ReferenceIdeal Cert.ReferenceIdeal.Read Idealize.ShloMosaic Idealize.ShloMosaic.ValueIdx

/-- The projection stage at (b, n, f). -/
theorem proj_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (n : Fin 2048) (f : Fin 3072) :
    val_main_v3 (F := Ideal) x0 x1 x2 (ix3 b n f) = Cert.Spec.proj x0 x1 x2 b n f := by
  have el : ∀ k : Fin 1024, lidx_main_v0 (ix3 b n f) k = ix3 b n k := fun k =>
    funext fun a => Fin.ext (by match a with | ⟨0, _⟩ => rfl | ⟨1, _⟩ => rfl | ⟨2, _⟩ => rfl)
  have er : ∀ k : Fin 1024, ridx_main_v0 (ix3 b n f) k = ix2 f k := fun k =>
    funext fun a => Fin.ext (by match a with | ⟨0, _⟩ => rfl | ⟨1, _⟩ => rfl)
  have eb : idx_main_v1 (idx_main_v2 (ix3 b n f)) = ix1 f :=
    funext fun a => Fin.ext (by match a with | ⟨0, _⟩ => rfl)
  rw [val_main_v3_apply, val_main_v0_apply, val_main_v2_apply, val_main_v1_apply, eb]
  simp only [el, er, Ideal.addf_def]
  rfl

end Cert.RefSide
-- ==== Proof.RefHeads.lean ====
/-
  The reference program's queries, keys and values: each is a third of the projection's features (a slice
  of 1024 columns), split row-major into 16 heads of 64 features and transposed to [batch, head, row, feature].
  Read at (b, h, n, e) each is the projection at (b, n, column), the column being head h's feature e inside
  the first, second or third group of 1024.
-/
import proofs.«130582_j40767829573965_2_alg».proof.Proof.Spec
import proofs.«130582_j40767829573965_2_alg».proof.Proof.Gen.ReferenceIdeal.Read
import proofs.«130582_j40767829573965_2_alg».proof.Proof.RefProj

namespace Cert.RefSide

open Cert.ReferenceIdeal Cert.ReferenceIdeal.Read Idealize.ShloMosaic Idealize.ShloMosaic.ValueIdx

/-- The queries at (b, h, n, e). -/
theorem q_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) (e : Fin 64) :
    val_main_v8 (F := Ideal) x0 x1 x2 (ix4 b h n e) = Cert.Spec.proj x0 x1 x2 b n (Cert.Spec.qcol h e) := by
  have ei : idx_main_v4 (idx_main_v7 (idx_main_v8 (ix4 b h n e))) = ix3 b n (Cert.Spec.qcol h e) := by
    have hb := b.isLt; have hh := h.isLt; have hn := n.isLt; have he := e.isLt
    exact funext fun a => Fin.ext (by
      match a with
      | ⟨0, _⟩ => show (((b.val * 2048 + n.val) * 16 + h.val) * 64 + e.val) / 2097152 = b.val; omega
      | ⟨1, _⟩ => show (((b.val * 2048 + n.val) * 16 + h.val) * 64 + e.val) / 1024 % 2048 = n.val; omega
      | ⟨2, _⟩ => show (((b.val * 2048 + n.val) * 16 + h.val) * 64 + e.val) % 1024 = (h.val * 64 + e.val); omega)
  rw [val_main_v8_apply, val_main_v7_apply, val_main_v4_apply, ei, proj_read]

/-- The keys at (b, h, n, e). -/
theorem k_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) (e : Fin 64) :
    val_main_v10 (F := Ideal) x0 x1 x2 (ix4 b h n e) = Cert.Spec.proj x0 x1 x2 b n (Cert.Spec.kcol h e) := by
  have ei : idx_main_v5 (idx_main_v9 (idx_main_v10 (ix4 b h n e))) = ix3 b n (Cert.Spec.kcol h e) := by
    have hb := b.isLt; have hh := h.isLt; have hn := n.isLt; have he := e.isLt
    exact funext fun a => Fin.ext (by
      match a with
      | ⟨0, _⟩ => show (((b.val * 2048 + n.val) * 16 + h.val) * 64 + e.val) / 2097152 = b.val; omega
      | ⟨1, _⟩ => show (((b.val * 2048 + n.val) * 16 + h.val) * 64 + e.val) / 1024 % 2048 = n.val; omega
      | ⟨2, _⟩ => show 1024 + (((b.val * 2048 + n.val) * 16 + h.val) * 64 + e.val) % 1024 = 1024 + (h.val * 64 + e.val); omega)
  rw [val_main_v10_apply, val_main_v9_apply, val_main_v5_apply, ei, proj_read]

/-- The values at (b, h, n, e). -/
theorem v_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) (e : Fin 64) :
    val_main_v12 (F := Ideal) x0 x1 x2 (ix4 b h n e) = Cert.Spec.proj x0 x1 x2 b n (Cert.Spec.vcol h e) := by
  have ei : idx_main_v6 (idx_main_v11 (idx_main_v12 (ix4 b h n e))) = ix3 b n (Cert.Spec.vcol h e) := by
    have hb := b.isLt; have hh := h.isLt; have hn := n.isLt; have he := e.isLt
    exact funext fun a => Fin.ext (by
      match a with
      | ⟨0, _⟩ => show (((b.val * 2048 + n.val) * 16 + h.val) * 64 + e.val) / 2097152 = b.val; omega
      | ⟨1, _⟩ => show (((b.val * 2048 + n.val) * 16 + h.val) * 64 + e.val) / 1024 % 2048 = n.val; omega
      | ⟨2, _⟩ => show 2048 + (((b.val * 2048 + n.val) * 16 + h.val) * 64 + e.val) % 1024 = 2048 + (h.val * 64 + e.val); omega)
  rw [val_main_v12_apply, val_main_v11_apply, val_main_v6_apply, ei, proj_read]

end Cert.RefSide
-- ==== Proof.RefScores.lean ====
/-
  The reference program's scores: for a head, the contraction over the 64 features of a query row with a key
  row, divided by 32. The specification multiplies by 2^-5 instead: the two literal words denote the reals 32
  and 1/32, and on the extended reals dividing by a nonzero real is multiplying by its reciprocal, at the
  infinities too.
-/
import proofs.«130582_j40767829573965_2_alg».proof.Proof.Spec
import proofs.«130582_j40767829573965_2_alg».proof.Proof.Gen.ReferenceIdeal.Read
import proofs.«130582_j40767829573965_2_alg».proof.Proof.RefHeads

namespace Cert.RefSide

open Cert.ReferenceIdeal Cert.ReferenceIdeal.Read Idealize.ShloMosaic Idealize.ShloMosaic.ValueIdx

/-- The word 0x42000000 denotes the real 32. -/
theorem word_32 : Ideal.ofBits .f32 0x42000000#32 = ((32 : ℝ) : EReal) := by
  simp [Ideal.ofBits, Ideal.ieee, -EReal.coe_mul]; norm_num

/-- The word 0x3D000000 denotes the real 1/32. -/
theorem word_scale : Ideal.ofBits .f32 0x3D000000#32 = (((1 : ℝ) / 32 : ℝ) : EReal) := by
  simp [Ideal.ofBits, Ideal.ieee, -EReal.coe_mul]; norm_num

/-- Dividing by the word of 32 is multiplying by the specification's scale. -/
theorem div_32 (a : EReal) : Ideal.div a (Ideal.ofBits .f32 0x42000000#32) = a * Cert.Spec.scale := by
  rw [word_32, Ideal.div_coe (by norm_num : (32 : ℝ) ≠ 0)]
  unfold Cert.Spec.scale
  rw [word_scale]

/-- The scaled scores at (b, h, i, j). -/
theorem score_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (i j : Fin 2048) :
    val_main_v15 (F := Ideal) x0 x1 x2 (ix4 b h i j) = Cert.Spec.score x0 x1 x2 b h i j := by
  have el : ∀ k : Fin 64, lidx_main_v13 (ix4 b h i j) k = ix4 b h i k := fun k =>
    funext fun a => Fin.ext (by match a with | ⟨0, _⟩ => rfl | ⟨1, _⟩ => rfl | ⟨2, _⟩ => rfl | ⟨3, _⟩ => rfl)
  have er : ∀ k : Fin 64, ridx_main_v13 (ix4 b h i j) k = ix4 b h j k := fun k =>
    funext fun a => Fin.ext (by match a with | ⟨0, _⟩ => rfl | ⟨1, _⟩ => rfl | ⟨2, _⟩ => rfl | ⟨3, _⟩ => rfl)
  rw [val_main_v15_apply, val_main_v13_apply, val_main_v14_apply, val_main_cst_apply]
  simp only [el, er, q_read, k_read, Ideal.hostDivf_def, Ideal.ofBits_def]
  rw [div_32]
  rfl

end Cert.RefSide
-- ==== Proof.RefMax.lean ====
/-
  The reference program's row maximum: the host's reduction with a max body along the last axis of the
  [batch, head, row, row] scores, started from the word of minus infinity, then one more maximum with a splat
  of that same word. At (b, h, i) the reduction is the fold of max over j of the scores (b, h, i, j) from its
  initial value; the extra maximum changes nothing, the start of a fold of max being below the fold. So the
  stage is the specification's row maximum of the row of scores.
-/
import proofs.«130582_j40767829573965_2_alg».proof.Proof.Spec
import proofs.«130582_j40767829573965_2_alg».proof.Proof.Gen.ReferenceIdeal.Read
import proofs.«130582_j40767829573965_2_alg».proof.Proof.RefScores

namespace Cert.RefSide

open Cert.ReferenceIdeal Cert.ReferenceIdeal.Read Idealize.ShloMosaic Idealize.ShloMosaic.ValueIdx

/-- A max-reduction along axis 3 of a rank-4 array: at (b, i, j) the fold of max over k of the array at
    (b, i, j, k), from the initial value. -/
theorem hostMax4_axis3 {n0 n1 n2 n3 : ℕ} {u : Shape} (X : (⟨4, ![n0, n1, n2, n3]⟩ : Shape).Idx → Ideal .f32) (init : u.Idx → Ideal .f32)
    (h' : (⟨4, ![n0, n1, n2, n3]⟩ : Shape).ReducesTo [3] ⟨3, ![n0, n1, n2]⟩) (h : (⟨4, ![n0, n1, n2, n3]⟩ : Shape).Reduces [3] ⟨3, ![n0, n1, n2]⟩)
    (hu : 0 < u.numel) (b : Fin n0) (i : Fin n1) (j : Fin n2) :
    Host.reduce (FloatOps.maximumf (F := Ideal) (φ := .f32)) X init h' hu (ix3 b i j)
      = (Finset.univ : Finset (Fin n3)).fold max (init (Shape.Idx.first hu)) (fun k => X (ix4 b i j k)) := by
  refine (Host.reduce_eq_fold_single (FloatOps.maximumf (F := Ideal) (φ := .f32)) X init h' h hu (ix3 b i j)).trans ?_
  refine congrArg (fun f => (Finset.univ : Finset (Fin n3)).fold max (init (Shape.Idx.first hu)) f) ?_
  funext k
  refine congrArg X ?_
  exact funext fun a => Fin.ext (by match a with | ⟨0, _⟩ => rfl | ⟨1, _⟩ => rfl | ⟨2, _⟩ => rfl | ⟨3, _⟩ => rfl)

theorem reduces_scores : S2x16x2048x2048.Reduces [3] S2x16x2048 := by decide

/-- The row maximum at (b, h, i). -/
theorem rowmax_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (i : Fin 2048) :
    val_main_v18 (F := Ideal) x0 x1 x2 (ix3 b h i) = Cert.Spec.rowMax (fun j => Cert.Spec.score x0 x1 x2 b h i j) := by
  rw [val_main_v18_apply, val_main_v17_apply, val_main_cst_1_apply]
  unfold val_main_v16
  rw [hostMax4_axis3 (val_main_v15 (F := Ideal) x0 x1 x2) (val_main_cst_0 (F := Ideal)) _ reduces_scores _ b h i]
  simp only [score_read, val_main_cst_0_apply, Ideal.maximumf_def, Ideal.ofBits_def]
  exact max_eq_right ((Finset.le_fold_max _).mpr (Or.inl le_rfl))

end Cert.RefSide
-- ==== Proof.RefSoft.lean ====
/-
  The reference program's softmax and its contraction with the values. At (b, h, i, j) the exponential stage
  is exp(score j - M), M the row maximum of row (b, h, i); the host's sum along the last axis is its initial
  value, the zero word, plus the sum over k of those exponentials; the quotient stage divides the two; and
  the batched contraction with the values at (b, h, i, d) is the sum over k of the quotient at (b, h, i, k)
  times the value (b, h, k, d). That is the specification's attention entry of head h.
-/
import proofs.«130582_j40767829573965_2_alg».proof.Proof.Spec
import proofs.«130582_j40767829573965_2_alg».proof.Proof.Gen.ReferenceIdeal.Read
import proofs.«130582_j40767829573965_2_alg».proof.Proof.RefMax

namespace Cert.RefSide

open Cert.ReferenceIdeal Cert.ReferenceIdeal.Read Idealize.ShloMosaic Idealize.ShloMosaic.ValueIdx

/-- The exponentials at (b, h, i, j). -/
theorem exp_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (i j : Fin 2048) :
    val_main_v22 (F := Ideal) x0 x1 x2 (ix4 b h i j)
      = Ideal.exp (Cert.Spec.score x0 x1 x2 b h i j - Cert.Spec.rowMax (fun k => Cert.Spec.score x0 x1 x2 b h i k)) := by
  have em : idx_main_v19 (idx_main_v20 (ix4 b h i j)) = ix3 b h i :=
    funext fun a => Fin.ext (by match a with | ⟨0, _⟩ => rfl | ⟨1, _⟩ => rfl | ⟨2, _⟩ => rfl)
  rw [val_main_v22_apply, val_main_v21_apply, val_main_v20_apply, val_main_v19_apply, em, rowmax_read, score_read]
  simp only [Ideal.hostUnary_exp_def, Ideal.subf_def]

/-- The row sums of the exponentials at (b, h, i). -/
theorem sum_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (i : Fin 2048) :
    val_main_v23 (F := Ideal) x0 x1 x2 (ix3 b h i)
      = ∑ k : Fin 2048, Ideal.exp (Cert.Spec.score x0 x1 x2 b h i k - Cert.Spec.rowMax (fun k => Cert.Spec.score x0 x1 x2 b h i k)) := by
  have ek : ∀ k : Fin 2048, idx_main_v23 (ix3 b h i) k = ix4 b h i k := fun k =>
    funext fun a => Fin.ext (by match a with | ⟨0, _⟩ => rfl | ⟨1, _⟩ => rfl | ⟨2, _⟩ => rfl | ⟨3, _⟩ => rfl)
  rw [val_main_v23_apply, val_main_cst_2_apply]
  simp only [ek, exp_read, Ideal.ofBits_def, Ideal.ofBits_zero_f32, zero_add]

/-- The normalized weights at (b, h, i, j). -/
theorem weight_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (i j : Fin 2048) :
    val_main_v26 (F := Ideal) x0 x1 x2 (ix4 b h i j)
      = Ideal.div (Ideal.exp (Cert.Spec.score x0 x1 x2 b h i j - Cert.Spec.rowMax (fun k => Cert.Spec.score x0 x1 x2 b h i k)))
          (∑ k : Fin 2048, Ideal.exp (Cert.Spec.score x0 x1 x2 b h i k - Cert.Spec.rowMax (fun k => Cert.Spec.score x0 x1 x2 b h i k))) := by
  have es : idx_main_v24 (idx_main_v25 (ix4 b h i j)) = ix3 b h i :=
    funext fun a => Fin.ext (by match a with | ⟨0, _⟩ => rfl | ⟨1, _⟩ => rfl | ⟨2, _⟩ => rfl)
  rw [val_main_v26_apply, val_main_v25_apply, val_main_v24_apply, es, sum_read, exp_read]
  simp only [Ideal.hostDivf_def]

/-- The attention output at (b, h, i, d): the specification's entry for batch b, row i, head h, feature d. -/
theorem attn_read (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (i : Fin 2048) (d : Fin 64) :
    val_main_v27 (F := Ideal) x0 x1 x2 (ix4 b h i d) = Cert.Spec.head x0 x1 x2 b i h d := by
  have el : ∀ k : Fin 2048, lidx_main_v27 (ix4 b h i d) k = ix4 b h i k := fun k =>
    funext fun a => Fin.ext (by match a with | ⟨0, _⟩ => rfl | ⟨1, _⟩ => rfl | ⟨2, _⟩ => rfl | ⟨3, _⟩ => rfl)
  have er : ∀ k : Fin 2048, ridx_main_v27 (ix4 b h i d) k = ix4 b h k d := fun k =>
    funext fun a => Fin.ext (by match a with | ⟨0, _⟩ => rfl | ⟨1, _⟩ => rfl | ⟨2, _⟩ => rfl | ⟨3, _⟩ => rfl)
  rw [val_main_v27_apply]
  simp only [el, er, weight_read, v_read]
  rfl

end Cert.RefSide
-- ==== Proof.RefRun.lean ====
/-
  The reference program's result and its run. The last two host operations transpose the attention output
  back to [batch, row, head, feature] and merge the last two axes row-major, so the result at (b, n, c) is the
  attention output of head c / 64 at row n, feature c % 64: the specification's array G. Every weakly fair
  execution of the reference ends with the result buffer holding G of the three argument arrays, the arguments
  unchanged.
-/
import proofs.«130582_j40767829573965_2_alg».proof.Proof.Spec
import proofs.«130582_j40767829573965_2_alg».proof.Proof.Gen.ReferenceIdeal.Read
import proofs.«130582_j40767829573965_2_alg».proof.Proof.RefSoft

namespace Cert.RefSide

open Cert.ReferenceIdeal Cert.ReferenceIdeal.Read Idealize.ShloMosaic Idealize.ShloMosaic.ValueIdx

open Idealize.SL.Sem Idealize.ShloMosaic.TcCoe

/-- The last stage is the specification's array. -/
theorem result_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) :
    val_main_v29 (F := Ideal) x0 x1 x2 = Cert.Spec.G x0 x1 x2 := by
  funext i
  obtain ⟨b, n, c, rfl⟩ : ∃ (b : Fin 2) (n : Fin 2048) (c : Fin 1024), i = ix3 b n c := ⟨i 0, i 1, i 2, eq_ix3 i⟩
  have hb := b.isLt; have hn := n.isLt; have hc := c.isLt
  have ei : idx_main_v28 (idx_main_v29 (ix3 b n c))
      = ix4 b (⟨c.val / 64, by omega⟩ : Fin 16) n (⟨c.val % 64, Nat.mod_lt _ (by decide)⟩ : Fin 64) :=
    funext fun a => Fin.ext (by
      match a with
      | ⟨0, _⟩ => show ((b.val * 2048 + n.val) * 1024 + c.val) / 2097152 = b.val; omega
      | ⟨1, _⟩ => show ((b.val * 2048 + n.val) * 1024 + c.val) / 64 % 16 = c.val / 64; omega
      | ⟨2, _⟩ => show ((b.val * 2048 + n.val) * 1024 + c.val) / 1024 % 2048 = n.val; omega
      | ⟨3, _⟩ => show ((b.val * 2048 + n.val) * 1024 + c.val) % 64 = c.val % 64; omega)
  rw [val_main_v29_apply, val_main_v28_apply, ei, attn_read, Cert.Spec.G_ix3]

end Cert.RefSide

namespace Cert.RefSide

open Cert.ReferenceIdeal Idealize.ShloMosaic Idealize.ShloMosaic.TcCoe Idealize.SL.Sem

/-- The reference's run: the result buffer ends at the specification's array of the arguments' launch contents,
    the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v29)
          = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans ((Cert.ReferenceIdeal.Read.val_main_v29_eq (F := Ideal) m c).trans (result_eq _ _ _)), (h c).2⟩)
    (Cert.ReferenceIdeal.Value.run (F := Ideal) m ρ)

end Cert.RefSide
-- ==== Proof.lean ====
/-
  A fused projection-and-attention block against its plain reference, over the extended reals.

  The kernel program flattens the activation, projects it to queries, keys and values in one tiled matrix product with
  the bias added (first region, one tile of 512 rows per grid point), re-lays the result as two batches, and then, per
  batch, pair of heads and tile of 512 query rows (second region), forms the scaled scores against all 2048 keys,
  normalises each row by the exponentials' sum after subtracting the row maximum, and multiplies by the values, writing
  the two heads of the pair side by side. The reference computes the same projection, splits it into heads by a reshape
  and a transposition, divides the scores by 32 where the kernel multiplies by 2^-5, takes the same row maximum, the same
  normalisation and the same product, and transposes back.

  Both programs' results are the specification's array G of the three arguments (Spec.lean): entry (b, n, 64 h + d) is
  the attention entry of head h's scores of query row n against value feature d. On the kernel's side this is read off
  the run of its two regions (the frames' proof data name what every write-back leaves); on the reference's side off
  its operations one at a time. The only law between the two spellings is that dividing by the real 32 is multiplying by
  1/32, which holds at the infinities too, and that a maximum taken again with its own starting value is unchanged; sums
  are finite sums in a commutative monoid. No finiteness of the inputs is used. The idealization rewrote nothing, so the
  idealized kernel is the kernel's own text.
-/
import proofs.«130582_j40767829573965_2_alg».proof.Defs
import proofs.«130582_j40767829573965_2_alg».proof.Proof.Gen.Kernel
import proofs.«130582_j40767829573965_2_alg».proof.Proof.Gen.KernelIdeal
import proofs.«130582_j40767829573965_2_alg».proof.Proof.Gen.ReferenceIdeal
import proofs.«130582_j40767829573965_2_alg».proof.Proof.Gen.Pre_finite_inputs
import proofs.«130582_j40767829573965_2_alg».proof.Proof.KFrameRun
import proofs.«130582_j40767829573965_2_alg».proof.Proof.KernelValue
import proofs.«130582_j40767829573965_2_alg».proof.Proof.RefRun
import Idealize.ShloMosaic.Adequacy
import Idealize.ShloMosaic.Init

noncomputable section

namespace Cert.Proof

open Idealize.ShloMosaic Idealize.SL.Sem

/-- The kernel as printed runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- From memories agreeing on the arguments both programs end with the specification's array of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), Cert.KernelIdeal.Hand.value m ρ, ?_⟩
  refine (θ_run Cert.ReferenceIdeal.defs _ _).mono (fun _ h c => ⟨(h c).1.trans ?_, (h c).2⟩) (Cert.RefSide.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
